-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x16x20000 : Shape := ⟨3, ![2, 16, 20000]⟩
abbrev S5000x20000 : Shape := ⟨2, ![5000, 20000]⟩
abbrev S_ : Shape := ⟨0, ![]⟩

class Facts : Prop where
  bcast_S_S2x16x20000 : S_.BroadcastsInDim S2x16x20000 (![] : Fin 0 → Fin S2x16x20000.rank)
  reducesTo_S2x16x20000_S_d0_1_2 : S2x16x20000.ReducesTo [0, 1, 2] S_
  h_S_ : 0 < S_.numel
  bcast_S_S5000x20000 : S_.BroadcastsInDim S5000x20000 (![] : Fin 0 → Fin S5000x20000.rank)
  reducesTo_S5000x20000_S_d0_1 : S5000x20000.ReducesTo [0, 1] S_

variable [Facts]

def fn {F : FTy → Type} [FloatOps F] (main_arg0 : FVec F S2x16x20000 .f32) (main_arg1 : FVec F S5000x20000 .f32) : IVec S_ 1 :=
  let main_v0 : FVec F S2x16x20000 .f32 := Host.absf main_arg0
  let main_cst : FVec F S_ .f32 := constant S_ .f32 0x7F800000#32
  let main_v1 : FVec F S2x16x20000 .f32 := broadcastInDim S2x16x20000 ![] bcast_S_S2x16x20000 main_cst
  let main_v2 : IVec S2x16x20000 1 := cmpf .olt main_v0 main_v1
  let main_c : IVec S_ 1 := constantI S_ 1 1#1
  let main_v3 : IVec S_ 1 := (fun x v => Host.reduce IntOp.andi x v reducesTo_S2x16x20000_S_d0_1_2 h_S_) main_v2 main_c
  let main_v4 : FVec F S5000x20000 .f32 := Host.absf main_arg1
  let main_cst_0 : FVec F S_ .f32 := constant S_ .f32 0x7F800000#32
  let main_v5 : FVec F S5000x20000 .f32 := broadcastInDim S5000x20000 ![] bcast_S_S5000x20000 main_cst_0
  let main_v6 : IVec S5000x20000 1 := cmpf .olt main_v4 main_v5
  let main_c_1 : IVec S_ 1 := constantI S_ 1 1#1
  let main_v7 : IVec S_ 1 := (fun x v => Host.reduce IntOp.andi x v reducesTo_S5000x20000_S_d0_1 h_S_) main_v6 main_c_1
  let main_v8 : IVec S_ 1 := andi main_v3 main_v7
  main_v8
-- ==== Kernel.lean ====
abbrev S2x16x20000 : Shape := ⟨3, ![2, 16, 20000]⟩
abbrev S5000x20000 : Shape := ⟨2, ![5000, 20000]⟩
abbrev S32x20000 : Shape := ⟨2, ![32, 20000]⟩
abbrev S32x5000 : Shape := ⟨2, ![32, 5000]⟩
abbrev S128x20000 : Shape := ⟨2, ![128, 20000]⟩
abbrev S32x128 : Shape := ⟨2, ![32, 128]⟩
abbrev S128x32 : Shape := ⟨2, ![128, 32]⟩
abbrev S8x20000 : Shape := ⟨2, ![8, 20000]⟩
abbrev S32x8 : Shape := ⟨2, ![32, 8]⟩
abbrev S2x16x5000 : Shape := ⟨3, ![2, 16, 5000]⟩

abbrev nBuf : Space → Nat
  | .hbm => 5
  | .vmem => 6
  | .smem => 0
  | _ => 0

abbrev bufTy : (tb : Table) → Fin (tcTables nBuf tb) → BufTy
  | .hbm, ⟨0, _⟩ => ⟨S2x16x20000, .f32⟩
  | .hbm, ⟨1, _⟩ => ⟨S5000x20000, .f32⟩
  | .hbm, ⟨2, _⟩ => ⟨S32x20000, .f32⟩
  | .hbm, ⟨3, _⟩ => ⟨S32x5000, .f32⟩
  | .hbm, ⟨4, _⟩ => ⟨S2x16x5000, .f32⟩
  | .local _ .vmem, ⟨0, _⟩ => ⟨S32x20000, .f32⟩
  | .local _ .vmem, ⟨1, _⟩ => ⟨S128x20000, .f32⟩
  | .local _ .vmem, ⟨2, _⟩ => ⟨S128x20000, .f32⟩
  | .local _ .vmem, ⟨3, _⟩ => ⟨S32x128, .f32⟩
  | .local _ .vmem, ⟨4, _⟩ => ⟨S32x128, .f32⟩
  | .local _ .vmem, ⟨5, _⟩ => ⟨S32x20000, .bf16⟩
  | _, _ => ⟨S2x16x20000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![40], ![false]⟩

def k0_cond2 (i : grid0.Coords) : BitVec 1 :=
  let arg0 : BitVec 32 := BitVec.ofNat 32 (i 0).val
  let c39_i32 : BitVec 32 := 39#32
  let v3 : BitVec 1 := Scalar.cmpi .slt arg0 c39_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg0 : BitVec 32 := BitVec.ofNat 32 (i 0).val
  let c39_i32_2 : BitVec 32 := 39#32
  let v6 : BitVec 1 := Scalar.cmpi .eq arg0 c39_i32_2
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S32x20000 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S128x20000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S32x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S2x16x20000_S32x20000 : S2x16x20000.ShapeCasts S32x20000
  inb_S32x20000_S32x20000_0_0 : ∀ a, (![0, 0] : Fin 2 → Nat) a + S32x20000.size a ≤ S32x20000.size a
  h_S32x20000 : 0 < S32x20000.numel
  shapeCasts_S32x20000_S32x20000 : S32x20000.ShapeCasts S32x20000
  bitsLt_bf16_f32 : FTy.bits .bf16 < FTy.bits .f32
  packedbf16_S32x20000_S32x20000_0_0 : (Rect.unit (s := S32x20000) ![0, 0] S32x20000.size inb_S32x20000_S32x20000_0_0).PackedRows (EltTy.packing .bf16)
  inb_S128x20000_S128x20000_0_0 : ∀ a, (![0, 0] : Fin 2 → Nat) a + S128x20000.size a ≤ S128x20000.size a
  h_S128x20000 : 0 < S128x20000.numel
  transposes_S128x32_p1_0_S32x128 : S128x32.Transposes [1, 0] S32x128
  inb_S32x128_S32x128_0_0 : ∀ a, (![0, 0] : Fin 2 → Nat) a + S32x128.size a ≤ S32x128.size a
  h_S32x128 : 0 < S32x128.numel
  inb_S128x20000_S8x20000_0_0 : ∀ a, (![0, 0] : Fin 2 → Nat) a + S8x20000.size a ≤ S128x20000.size a
  h_S8x20000 : 0 < S8x20000.numel
  inb_S32x128_S32x8_0_0 : ∀ a, (![0, 0] : Fin 2 → Nat) a + S32x8.size a ≤ S32x128.size a
  h_S32x8 : 0 < S32x8.numel
  shapeCasts_S32x5000_S2x16x5000 : S32x5000.ShapeCasts S2x16x5000
  dot_S128x20000_S32x20000_S128x32_1_1_0_0_n_n_wf : DotDims.WF S128x20000 S32x20000 S128x32 [1] [1] [0] [0] [] []
  dot_S32x20000_S8x20000_S32x8_1_1_0_0_n_n_wf : DotDims.WF S32x20000 S8x20000 S32x8 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S32x20000.size a ≤ S32x20000.size a
  hwx0_0 : ∀ i : grid0.Coords, EltTy.bits .f32 = 32 ∨ (Rect.block (s := S32x20000) S32x20000.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hstart0_1 : ∀ (i : grid0.Coords) a, cc0_transform_1 i a * S128x20000.size a < S5000x20000.size a
  hwx0_1 : ∀ i : grid0.Coords, EltTy.bits .f32 = 32 ∨ (Rect.unit (s := S5000x20000) (fun a => cc0_transform_1 i a * S128x20000.size a) (fun a => (Pipeline.Clip.of (cc0_transform_1 i a) (S128x20000.size a) (S5000x20000.size a)).extent (S128x20000.size a)) fun a => Pipeline.Clip.inb (Pipeline.Clip.ok_of (hstart0_1 i a))).WholeWords (EltTy.packing .f32)
  hwxs0_1 : ∀ i : grid0.Coords, EltTy.bits .f32 = 32 ∨ (Rect.unit (s := S128x20000) (fun _ => 0) (fun a => (Pipeline.Clip.of (cc0_transform_1 i a) (S128x20000.size a) (S5000x20000.size a)).extent (S128x20000.size a)) fun a => (Nat.zero_add _).trans_le (Pipeline.Clip.extent_le (Pipeline.Clip.ok_of (hstart0_1 i a)))).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hstart0_2 : ∀ (i : grid0.Coords) a, cc0_transform_2 i a * S32x128.size a < S32x5000.size a
  hwx0_2 : ∀ i : grid0.Coords, EltTy.bits .f32 = 32 ∨ (Rect.unit (s := S32x5000) (fun a => cc0_transform_2 i a * S32x128.size a) (fun a => (Pipeline.Clip.of (cc0_transform_2 i a) (S32x128.size a) (S32x5000.size a)).extent (S32x128.size a)) fun a => Pipeline.Clip.inb (Pipeline.Clip.ok_of (hstart0_2 i a))).WholeWords (EltTy.packing .f32)
  hwxs0_2 : ∀ i : grid0.Coords, EltTy.bits .f32 = 32 ∨ (Rect.unit (s := S32x128) (fun _ => 0) (fun a => (Pipeline.Clip.of (cc0_transform_2 i a) (S32x128.size a) (S32x5000.size a)).extent (S32x128.size a)) fun a => (Nat.zero_add _).trans_le (Pipeline.Clip.extent_le (Pipeline.Clip.ok_of (hstart0_2 i a)))).WholeWords (EltTy.packing .f32)

variable [Facts₀]

def dot_S128x20000_S32x20000_S128x32_1_1_0_0_n_n : DotDims S128x20000 S32x20000 S128x32 where
  lhsContracting := [1]
  rhsContracting := [1]
  lhsNonContracting := [0]
  rhsNonContracting := [0]
  lhsBatch := []
  rhsBatch := []
  wf := dot_S128x20000_S32x20000_S128x32_1_1_0_0_n_n_wf
def dot_S32x20000_S8x20000_S32x8_1_1_0_0_n_n : DotDims S32x20000 S8x20000 S32x8 where
  lhsContracting := [1]
  rhsContracting := [1]
  lhsNonContracting := [0]
  rhsNonContracting := [0]
  lhsBatch := []
  rhsBatch := []
  wf := dot_S32x20000_S8x20000_S32x8_1_1_0_0_n_n_wf

abbrev win0_0 : Pipeline.Window sig grid0 :=
  Pipeline.Window.ofSpec (Memref.whole main_v0) S32x20000.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpecClip (Memref.whole main_arg1) S128x20000.size cc0_transform_1 reads0_1 false false 2 stage0_1 sem0_1
    hrank0 hreads0_1 hstart0_1 nbuf0_1 (Memref.isWhole_whole _) hwx0_1 hwxs0_1 hstage0_1

abbrev win0_2 : Pipeline.Window sig grid0 :=
  Pipeline.Window.ofSpecClip (Memref.whole main_v1) S32x128.size cc0_transform_2 reads0_2 true false 2 stage0_2 sem0_2
    hrank0 hreads0_2 hstart0_2 nbuf0_2 (Memref.isWhole_whole _) hwx0_2 hwxs0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) && !(k0_cond3 i == 1#1) | ⟨_ + 3, h⟩ => absurd h (Nat.not_lt.2 (Nat.le_add_left _ _))

class Facts : Prop extends Facts₀ where

variable [Facts]
-- ==== ReferenceIdeal.lean ====
abbrev S2x16x20000 : Shape := ⟨3, ![2, 16, 20000]⟩
abbrev S5000x20000 : Shape := ⟨2, ![5000, 20000]⟩
abbrev S20000x2x16 : Shape := ⟨3, ![20000, 2, 16]⟩
abbrev S20000x32 : Shape := ⟨2, ![20000, 32]⟩
abbrev S5000x32 : Shape := ⟨2, ![5000, 32]⟩
abbrev S5000x2x16 : Shape := ⟨3, ![5000, 2, 16]⟩
abbrev S2x16x5000 : Shape := ⟨3, ![2, 16, 5000]⟩

abbrev nBuf : Space → Nat
  | .hbm => 7
  | .vmem => 0
  | .smem => 0
  | _ => 0

abbrev bufTy : (tb : Table) → Fin (tcTables nBuf tb) → BufTy
  | .hbm, ⟨0, _⟩ => ⟨S2x16x20000, .f32⟩
  | .hbm, ⟨1, _⟩ => ⟨S5000x20000, .f32⟩
  | .hbm, ⟨2, _⟩ => ⟨S20000x2x16, .f32⟩
  | .hbm, ⟨3, _⟩ => ⟨S20000x32, .f32⟩
  | .hbm, ⟨4, _⟩ => ⟨S5000x32, .f32⟩
  | .hbm, ⟨5, _⟩ => ⟨S5000x2x16, .f32⟩
  | .hbm, ⟨6, _⟩ => ⟨S2x16x5000, .f32⟩
  | _, _ => ⟨S2x16x20000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]

class Facts₀ : Prop where
  transposes_S2x16x20000_S20000x2x16_2_0_1 : S2x16x20000.Transposes [2, 0, 1] S20000x2x16
  shapeCasts_S20000x2x16_S20000x32 : S20000x2x16.ShapeCasts S20000x32
  shapeCasts_S5000x32_S5000x2x16 : S5000x32.ShapeCasts S5000x2x16
  transposes_S5000x2x16_S2x16x5000_1_2_0 : S5000x2x16.Transposes [1, 2, 0] S2x16x5000
  dot_S5000x20000_S20000x32_S5000x32_1_0_0_1_n_n_wf : DotDims.WF S5000x20000 S20000x32 S5000x32 [1] [0] [0] [1] [] []

variable [Facts₀]

def dot_S5000x20000_S20000x32_S5000x32_1_0_0_1_n_n : DotDims S5000x20000 S20000x32 S5000x32 where
  lhsContracting := [1]
  rhsContracting := [0]
  lhsNonContracting := [0]
  rhsNonContracting := [1]
  lhsBatch := []
  rhsBatch := []
  wf := dot_S5000x20000_S20000x32_S5000x32_1_0_0_1_n_n_wf

class Facts : Prop extends Facts₀ where

variable [Facts]
-- ==== Proof.BitsCases.lean ====
/-
  The body of the matrix-product kernel, run once per control case, at any float instance.
  The grid has forty points, one per 128-row slab of the right operand; the body's three branches depend on the
  point alone, and each case leaves the four buffers it is called with — the left operand's, the slab's, the
  output block's and the bf16 scratch — at contents stated here through the body's named payloads.
-/
import proofs.«114906_g36575941493117_cont_8to1_b_730_29_alg».proof.Proof.Gen.Kernel.Launch
import proofs.«114906_g36575941493117_cont_8to1_b_730_29_alg».proof.Proof.Gen.Kernel.Skeleton
import proofs.«114906_g36575941493117_cont_8to1_b_730_29_alg».proof.Proof.Gen.Kernel.Points
import proofs.«114906_g36575941493117_cont_8to1_b_730_29_alg».proof.Proof.Gen.Kernel.Frame
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Slab

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! ## The three control cases of the body

The body branches on the grid coordinate alone: at the first point it also copies the left operand, narrowed to
bf16, into the scratch; at every point but the last it contracts the whole 128-row slab against the scratch and
stores the transposed product over the whole output block; at the last point it contracts only the slab's first
eight rows and stores into the block's first eight columns. -/

abbrev condFirst (i : grid0.Coords) : Prop := (Scalar.cmpi .ne (Scalar.extui (Scalar.cmpi .eq (BitVec.ofNat 32 (i 0).val) 0#32)) 0#32) = 1#1
abbrev condBody (i : grid0.Coords) : Prop := k0_cond2 i = 1#1
abbrev condTail (i : grid0.Coords) : Prop := k0_cond3 i = 1#1

/-- The first branch is taken at point 0 only, -/
theorem hcondFirst : ∀ t : Fin cfg0.N, condFirst (grid0.coords t) ↔ t.val = 0 :=
  (by decide +kernel : ∀ t : Fin grid0.N, condFirst (grid0.coords t) ↔ t.val = 0)
/-- the second at the points before the last, -/
theorem hcondBody : ∀ t : Fin cfg0.N, condBody (grid0.coords t) ↔ t.val < 39 :=
  (by decide +kernel : ∀ t : Fin grid0.N, condBody (grid0.coords t) ↔ t.val < 39)
/-- the third at the last. -/
theorem hcondTail : ∀ t : Fin cfg0.N, condTail (grid0.coords t) ↔ t.val = 39 :=
  (by decide +kernel : ∀ t : Fin grid0.N, condTail (grid0.coords t) ↔ t.val = 39)

theorem zeros2 : (![0, 0] : Fin 2 → Nat) = fun _ => 0 := funext fun a => by fin_cases a <;> rfl

/-- The first eight rows of the slab's staging buffer, -/
abbrev rowsHead : Rect S128x20000 := Rect.unit (s := S128x20000) ![0, 0] S8x20000.size inb_S128x20000_S8x20000_0_0
/-- and the first eight columns of the output block's. -/
abbrev colsHead : Rect S32x128 := Rect.unit (s := S32x128) ![0, 0] S32x8.size inb_S32x128_S32x8_0_0

set_option maxHeartbeats 1000000 in
/-- A point before the last, not the first: the output block's buffer ends at the transposed product of the slab
    with the scratch; the other three buffers are left as found. -/
theorem runMid (c : Dev nD) (i : grid0.Coords) (arg1 : Memref sig .tc .vmem S32x20000 .f32) (harg1 : arg1.IsWhole) (arg2 : Memref sig .tc .vmem S128x20000 .f32) (harg2 : arg2.IsWhole) (arg3 : Memref sig .tc .vmem S32x128 .f32) (harg3 : arg3.IsWhole) (arg4 : Memref sig .tc .vmem S32x20000 .bf16) (harg4 : arg4.IsWhole)
    (hc1 : ¬condFirst i) (hc2 : condBody i) (hc3 : ¬condTail i)
    (x0 : Vec F S32x20000 .f32) (x1 : Vec F S128x20000 .f32) (xs : Vec F S32x20000 .bf16) (E : Set ℕ) (K : PUnit → sProp 𝕄) :
    iprop(owns (c : Thread nD τ) arg1 fullShare x0 ∗ owns (c : Thread nD τ) arg2 fullShare x1 ∗ (∃ d, owns (c : Thread nD τ) arg3 fullShare d) ∗ owns (c : Thread nD τ) arg4 fullShare xs
        ∗ (iprop(owns (c : Thread nD τ) arg1 fullShare x0 ∗ owns (c : Thread nD τ) arg2 fullShare x1 ∗ owns (c : Thread nD τ) arg3 fullShare (k0_pay2 x1 xs) ∗ owns (c : Thread nD τ) arg4 fullShare xs) -∗ K ⟨⟩))
      ⊢ wp frame (wpE (defs₀ (F := F)) Variants.none c none) E (cc0__mm_kernel i arg1 harg1 arg2 harg2 arg3 harg3 arg4 harg4) K := by
  simp only [cc0__mm_kernel_eq_skeleton]; unfold cc0__mm_kernel_skel
  unfold owns
  iintro ⟨⟨%f0, %hf0, H0⟩, ⟨%f1, %hf1, H1⟩, ⟨%d2, %f2, -, H2⟩, ⟨%fs, %hfs, HS⟩, Hk⟩
  obtain rfl := harg1.eq_unread hf0; obtain rfl := harg2.eq_unread hf1; obtain rfl := harg4.eq_unread hfs
  sl_exec (disch := first | exact hc1 | exact hc2 | exact hc3)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr
    swap; · iexact H2
    ipureintro
    rw [View.read_writes_eq_canon _ _ _ (fun y => ⟨_, List.mem_singleton_self _, View.mem_set_unit_zero zeros2 Facts₀.inb_S32x128_S32x128_0_0 y⟩),
      View.canon_unit_zero (S := S32x128) zeros2]
    simp only [View.readAt_eq_ld, harg2.read_unread, harg4.read_unread, View.ld_unit_zero (S := S128x20000) zeros2,
      View.ld_unit_zero (S := S32x20000) zeros2]
  iexists _; isplitr; · ipureintro; exact harg4.read_unread _
  iexact HS

set_option maxHeartbeats 1000000 in
/-- The first point: the scratch ends at the left operand narrowed, and the output block's buffer at the transposed
    product of the slab with THAT. -/
theorem runFirst (c : Dev nD) (i : grid0.Coords) (arg1 : Memref sig .tc .vmem S32x20000 .f32) (harg1 : arg1.IsWhole) (arg2 : Memref sig .tc .vmem S128x20000 .f32) (harg2 : arg2.IsWhole) (arg3 : Memref sig .tc .vmem S32x128 .f32) (harg3 : arg3.IsWhole) (arg4 : Memref sig .tc .vmem S32x20000 .bf16) (harg4 : arg4.IsWhole)
    (hc1 : condFirst i) (hc2 : condBody i) (hc3 : ¬condTail i)
    (x0 : Vec F S32x20000 .f32) (x1 : Vec F S128x20000 .f32) (E : Set ℕ) (K : PUnit → sProp 𝕄) :
    iprop(owns (c : Thread nD τ) arg1 fullShare x0 ∗ owns (c : Thread nD τ) arg2 fullShare x1 ∗ (∃ d, owns (c : Thread nD τ) arg3 fullShare d) ∗ (∃ d, owns (c : Thread nD τ) arg4 fullShare d)
        ∗ (iprop(owns (c : Thread nD τ) arg1 fullShare x0 ∗ owns (c : Thread nD τ) arg2 fullShare x1 ∗ owns (c : Thread nD τ) arg3 fullShare (k0_pay2 x1 (k0_pay1 x0)) ∗ owns (c : Thread nD τ) arg4 fullShare (k0_pay1 x0)) -∗ K ⟨⟩))
      ⊢ wp frame (wpE (defs₀ (F := F)) Variants.none c none) E (cc0__mm_kernel i arg1 harg1 arg2 harg2 arg3 harg3 arg4 harg4) K := by
  simp only [cc0__mm_kernel_eq_skeleton]; unfold cc0__mm_kernel_skel
  unfold owns
  iintro ⟨⟨%f0, %hf0, H0⟩, ⟨%f1, %hf1, H1⟩, ⟨%d2, %f2, -, H2⟩, ⟨%ds, %fs, -, HS⟩, Hk⟩
  obtain rfl := harg1.eq_unread hf0; obtain rfl := harg2.eq_unread hf1
  sl_exec (disch := first | exact hc1 | exact hc2 | exact hc3)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr
    swap; · iexact H2
    ipureintro
    sl_unfold_words
    rw [View.read_writes_eq_canon _ _ _ (fun y => ⟨_, List.mem_singleton_self _, View.mem_set_unit_zero zeros2 Facts₀.inb_S32x128_S32x128_0_0 y⟩),
      View.canon_unit_zero (S := S32x128) zeros2, View.readCov_unit_zero (S := S32x20000) _ zeros2]
    simp only [View.readAt_eq_ld, harg1.read_unread, harg2.read_unread, View.ld_unit_zero (S := S128x20000) zeros2,
      View.ld_unit_zero (S := S32x20000) zeros2]
  iexists _; isplitr
  swap; · iexact HS
  ipureintro
  sl_unfold_words
  rw [View.read_writes_eq_canon _ _ _ (fun y => ⟨_, List.mem_singleton_self _, View.mem_set_unit_zero zeros2 Facts₀.inb_S32x20000_S32x20000_0_0 y⟩),
    View.canon_unit_zero (S := S32x20000) zeros2]
  simp only [View.readAt_eq_ld, harg1.read_unread, View.ld_unit_zero (S := S32x20000) zeros2]

set_option maxHeartbeats 1000000 in
/-- The last point: the output block's buffer ends, on its first eight columns, at the product of the scratch with
    the slab's first eight rows; nothing is said of its other columns. -/
theorem runLast (c : Dev nD) (i : grid0.Coords) (arg1 : Memref sig .tc .vmem S32x20000 .f32) (harg1 : arg1.IsWhole) (arg2 : Memref sig .tc .vmem S128x20000 .f32) (harg2 : arg2.IsWhole) (arg3 : Memref sig .tc .vmem S32x128 .f32) (harg3 : arg3.IsWhole) (arg4 : Memref sig .tc .vmem S32x20000 .bf16) (harg4 : arg4.IsWhole)
    (hc1 : ¬condFirst i) (hc2 : ¬condBody i) (hc3 : condTail i)
    (x0 : Vec F S32x20000 .f32) (x1 : Vec F S128x20000 .f32) (xs : Vec F S32x20000 .bf16) (E : Set ℕ) (K : PUnit → sProp 𝕄) :
    iprop(owns (c : Thread nD τ) arg1 fullShare x0 ∗ owns (c : Thread nD τ) arg2 fullShare x1 ∗ (∃ d, owns (c : Thread nD τ) arg3 fullShare d) ∗ owns (c : Thread nD τ) arg4 fullShare xs
        ∗ (iprop(owns (c : Thread nD τ) arg1 fullShare x0 ∗ owns (c : Thread nD τ) arg2 fullShare x1
            ∗ (∃ X : Vec F S32x128 .f32, ⌜∀ x, X (colsHead.emb x) = k0_pay3 (View.ld x1 rowsHead) xs x⌝ ∗ owns (c : Thread nD τ) arg3 fullShare X)
            ∗ owns (c : Thread nD τ) arg4 fullShare xs) -∗ K ⟨⟩))
      ⊢ wp frame (wpE (defs₀ (F := F)) Variants.none c none) E (cc0__mm_kernel i arg1 harg1 arg2 harg2 arg3 harg3 arg4 harg4) K := by
  simp only [cc0__mm_kernel_eq_skeleton]; unfold cc0__mm_kernel_skel
  unfold owns
  iintro ⟨⟨%f0, %hf0, H0⟩, ⟨%f1, %hf1, H1⟩, ⟨%d2, %f2, -, H2⟩, ⟨%fs, %hfs, HS⟩, Hk⟩
  obtain rfl := harg1.eq_unread hf0; obtain rfl := harg2.eq_unread hf1; obtain rfl := harg4.eq_unread hfs
  sl_exec (disch := first | exact hc1 | exact hc2 | exact hc3)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr
    swap
    · iexists _; isplitr
      swap; · iexact H2
      ipureintro; rfl
    ipureintro
    intro x
    rw [View.read_writes_cons_emb]
    simp only [View.readAt_eq_ld, harg2.read_unread, harg4.read_unread, View.ld_unit_zero (S := S32x20000) zeros2]
  iexists _; isplitr; · ipureintro; exact harg4.read_unread _
  iexact HS

end Cert.Kernel.Slab

end
-- ==== Proof.BitsStages.lean ====
/-
  The pipeline of the matrix-product kernel, point by point, at any float instance: what each staging buffer and the
  bf16 scratch hold around the body at each of the forty grid points, the body's obligation there, and from these the
  program's run — it terminates, faults nowhere, leaves its arguments as it found them, and its result array is what
  the forty write-backs leave.
  The right operand's 5000 rows are fetched in slabs of 128, so the last slab overhangs the array by 120 rows and the
  last output block by 120 columns: the fetch leaves those rows of the staging buffer at words nothing names, and the
  body at the last point reads only the slab's first eight rows and writes only the block's first eight columns —
  exactly the parts inside the arrays — so nothing that is written back depends on them.
-/
import proofs.«114906_g36575941493117_cont_8to1_b_730_29_alg».proof.Proof.Gen.Kernel.Launch
import proofs.«114906_g36575941493117_cont_8to1_b_730_29_alg».proof.Proof.Gen.Kernel.Skeleton
import proofs.«114906_g36575941493117_cont_8to1_b_730_29_alg».proof.Proof.Gen.Kernel.Points
import proofs.«114906_g36575941493117_cont_8to1_b_730_29_alg».proof.Proof.Gen.Kernel.Frame
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic
import proofs.«114906_g36575941493117_cont_8to1_b_730_29_alg».proof.Proof.BitsCases

set_option maxRecDepth 16384

noncomputable section

namespace Cert.Kernel.Slab

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the buffers hold, point by point -/

/-- The first grid point. -/
abbrev t₀ : Fin cfg0.N := ⟨0, by decide⟩

/-- The left operand, as the region finds it: its one block (the whole array, fetched once). -/
def lhs (c : Dev nD) : Vec F S32x20000 .f32 := iblk m c 0 t₀

/-- What the scratch holds from the first point on: the left operand narrowed to bf16. -/
def lhsNarrow (c : Dev nD) : Vec F S32x20000 .bf16 := k0_pay1 (lhs m c)

/-- The slab's staging buffer at point `t`: rows `128 t ‥ 128 t + 127` of the right operand where those are
    rows of it (at the last point the first eight), a fixed word below them. -/
def slab (c : Dev nD) (t : Fin cfg0.N) : Vec F S128x20000 .f32 :=
  win0_1.fill (grid0.coords t) (fun _ => Scalar.ofBits .f32 0#32) (iblk m c 1 t)

/-- The output block's staging buffer after the body at point `t`: before the last point the transposed product of
    the slab with the narrowed left operand; at the last point the product of the narrowed left operand with the
    slab's first eight rows on the first eight columns, a fixed word on the others. -/
def outBlock (c : Dev nD) (t : Fin cfg0.N) : Vec F S32x128 .f32 :=
  if t.val < 39 then k0_pay2 (slab m c t) (lhsNarrow m c)
  else colsHead.overlay (fun _ => Scalar.ofBits .f32 0#32) (k0_pay3 (View.ld (slab m c t) rowsHead) (lhsNarrow m c))

/-- The scratch as a memref. -/
abbrev scratch : Memref sig .tc .vmem S32x20000 .bf16 := Memref.whole cc0_scratch0

/-- The region invariant before position `n`: before the first point the scratch holds anything; afterwards the
    narrowed left operand. -/
def PhiS (c : Dev nD) : ℕ → sProp 𝕄
  | 0 => Pipeline.ΦA spec0 c
  | _ + 1 => iprop(owns (c : Thread nD τ) scratch fullShare (lhsNarrow m c) ∗ (∃ r, prngReg c r))

theorem PhiA_eq (c : Dev nD) :
    (Pipeline.ΦA spec0 c : sProp 𝕄) = iprop(iprop((∃ d, owns (c : Thread nD τ) scratch fullShare d)) ∗ (∃ r, prngReg c r)) := by
  unfold Pipeline.ΦA; rw [scopedRest0_eq]; simp only [scratch, owns_whole]; try rfl

theorem PhiS_pos (c : Dev nD) (n : ℕ) (hn : n ≠ 0) :
    PhiS m c n = iprop(owns (c : Thread nD τ) scratch fullShare (lhsNarrow m c) ∗ (∃ r, prngReg c r)) := by
  cases n with
  | zero => exact absurd rfl hn
  | succ n => rfl

/-- The proof data of the pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => slab m c t
    | ⟨2, _⟩ => outBlock m c t
  Φ t := PhiS m c t.val
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = slab m c t := by dsimp only [dats]
theorem after_2 (c : Dev nD) (t : Fin cfg0.N) : (dats m 0 c).after 2 t = outBlock m c t := by dsimp only [dats]

/-- The left operand's buffer holds its block at every point. -/
theorem before_0 (c : Dev nD) (t : Fin cfg0.N) (d) : (dats m 0 c).before 0 t d = iblk m c 0 t :=
  before0_0_of m (dats m 0 c) (A_eq m c 0) (after_0 m c) t d

/-- The slab's buffer was fetched at this point: the slab on the rows inside the array, `d` below. -/
theorem before_1 (c : Dev nD) (t : Fin cfg0.N) (d) :
    (dats m 0 c).before 1 t d = win0_1.fill (grid0.coords t) d (iblk m c 1 t) := by
  unfold Dat.before; rw [if_pos (fetch0_1 t)]
  unfold Dat.fetched Dat.blockOf iblk; rw [A_eq]

/-- No window is idle anywhere: the output block is stored at every point. -/
theorem live_0 : ∀ t : Fin cfg0.N, cfg0.idle 0 (grid0.coords t) = false := by decide +kernel
theorem live_1 : ∀ t : Fin cfg0.N, cfg0.idle 1 (grid0.coords t) = false := by decide +kernel
theorem live_2 : ∀ t : Fin cfg0.N, cfg0.idle 2 (grid0.coords t) = false := by decide +kernel

/-- Before the last point the slab's block lies inside the array, -/
theorem slab_uncut : ∀ t : Fin cfg0.N, t.val < 39 → ∀ a, (cfg0.win 1).clip (grid0.coords t) a = none :=
  (by decide +kernel : ∀ t : Fin grid0.N, t.val < 39 → ∀ a, win0_1.clip (grid0.coords t) a = none)
/-- at the last its first eight rows do, -/
theorem slab_tail : ∀ t : Fin cfg0.N, t.val = 39 → win0_1.xsize (grid0.coords t) 0 = 8 ∧ win0_1.xsize (grid0.coords t) 1 = 20000 :=
  (by decide +kernel : ∀ t : Fin grid0.N, t.val = 39 → win0_1.xsize (grid0.coords t) 0 = 8 ∧ win0_1.xsize (grid0.coords t) 1 = 20000)
/-- and the output block's first eight columns. -/
theorem out_tail : ∀ t : Fin cfg0.N, t.val = 39 → win0_2.xsize (grid0.coords t) 0 = 32 ∧ win0_2.xsize (grid0.coords t) 1 = 8 :=
  (by decide +kernel : ∀ t : Fin grid0.N, t.val = 39 → win0_2.xsize (grid0.coords t) 0 = 32 ∧ win0_2.xsize (grid0.coords t) 1 = 8)

/-- Whatever lay below the array's end, the slab's first eight rows at the last point are the array's. -/
theorem ld_slab_tail (c : Dev nD) (t : Fin cfg0.N) (ht : t.val = 39) (d d' : S128x20000.Idx → Elt F .f32) :
    View.ld (win0_1.fill (grid0.coords t) d (iblk m c 1 t)) rowsHead = View.ld (win0_1.fill (grid0.coords t) d' (iblk m c 1 t)) rowsHead := by
  funext x
  have hm : win0_1.moved (grid0.coords t) (rowsHead.idx x) = true := (win0_1.moved_iff _ _).mpr fun a => by
    obtain ⟨h0, h1⟩ := slab_tail t ht
    match a with
    | ⟨0, _⟩ =>
      refine lt_of_lt_of_eq ?_ h0.symm
      have h8 : (x 0).val < 8 := (x 0).isLt
      show 0 + 1 * (x 0).val < 8
      omega
    | ⟨1, _⟩ =>
      refine lt_of_lt_of_eq ?_ h1.symm
      have h8 : (x 1).val < 20000 := (x 1).isLt
      show 0 + 1 * (x 1).val < 20000
      omega
  show win0_1.fill (grid0.coords t) d _ (rowsHead.idx x) = win0_1.fill (grid0.coords t) d' _ (rowsHead.idx x)
  unfold Window.fill; rw [dif_pos hm, dif_pos hm]

/-- Before the last point nothing of the slab's buffer lies below the array's end: it holds the slab whatever it
    held before the fetch. -/
theorem fill_slab_uncut (c : Dev nD) (t : Fin cfg0.N) (ht : t.val < 39) (d d' : S128x20000.Idx → Elt F .f32) :
    win0_1.fill (grid0.coords t) d (iblk m c 1 t) = win0_1.fill (grid0.coords t) d' (iblk m c 1 t) := by
  funext j
  have hm : win0_1.moved (grid0.coords t) j = true := (win0_1.moved_iff _ j).mpr fun a => by
    have := (j a).isLt; unfold Window.xsize; rw [slab_uncut t ht a]; exact this
  unfold Window.fill; rw [dif_pos hm, dif_pos hm]

/-- So before the last point the output block is the transposed product over the slab's buffer as the body finds it, -/
theorem outBlock_lt (c : Dev nD) (t : Fin cfg0.N) (ht : t.val < 39) (d : S128x20000.Idx → Elt F .f32) :
    outBlock m c t = k0_pay2 (win0_1.fill (grid0.coords t) d (iblk m c 1 t)) (lhsNarrow m c) := by
  unfold outBlock slab; rw [if_pos ht, fill_slab_uncut m c t ht _ d]

/-- and at the last point the eight-column product laid over the fixed word. -/
theorem outBlock_last (c : Dev nD) (t : Fin cfg0.N) (ht : t.val = 39) :
    outBlock m c t = colsHead.overlay (fun _ => Scalar.ofBits .f32 0#32) (k0_pay3 (View.ld (slab m c t) rowsHead) (lhsNarrow m c)) := by
  unfold outBlock; rw [if_neg (by omega)]

/-- At the last point, contents that carry the eight-column product on the block's first eight columns agree with
    the output block on the part the write-back moves (which IS those columns). -/
theorem cut_out_last (c : Dev nD) (t : Fin cfg0.N) (ht : t.val = 39) (d : S128x20000.Idx → Elt F .f32) (X : Vec F S32x128 .f32)
    (hX : ∀ x, X (colsHead.emb x) = k0_pay3 (View.ld (win0_1.fill (grid0.coords t) d (iblk m c 1 t)) rowsHead) (lhsNarrow m c) x) :
    win0_2.cut (grid0.coords t) X = win0_2.cut (grid0.coords t) (outBlock m c t) := by
  funext j
  obtain ⟨h0, h1⟩ := out_tail t ht
  let x : S32x8.Idx := fun a => match a with
    | ⟨0, _⟩ => ⟨(j 0).val, lt_of_lt_of_eq (j 0).isLt h0⟩
    | ⟨1, _⟩ => ⟨(j 1).val, lt_of_lt_of_eq (j 1).isLt h1⟩
  have hx : win0_2.xinj (grid0.coords t) j = colsHead.emb x := funext fun a => Fin.ext (by
    match a with
    | ⟨0, _⟩ => show (j 0).val = 0 + 1 * (j 0).val; omega
    | ⟨1, _⟩ => show (j 1).val = 0 + 1 * (j 1).val; omega)
  show X (win0_2.xinj (grid0.coords t) j) = outBlock m c t (win0_2.xinj (grid0.coords t) j)
  rw [hx, hX x, outBlock_last m c t ht, Rect.overlay_emb]
  unfold slab
  rw [ld_slab_tail m c t ht d _]

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) ((cfg0.win 0).stage (cfg0.slots t 0)) fullShare ((dats m 0 c).before 0 t d))
    ∗ (∃ d, owns (c : Thread nD τ) ((cfg0.win 1).stage (cfg0.slots t 1)) fullShare ((dats m 0 c).before 1 t d))
    ∗ (∃ d, owns (c : Thread nD τ) ((cfg0.win 2).stage (cfg0.slots t 2)) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ (dats m 0 c).leaves 0 t ∗ (dats m 0 c).leaves 1 t ∗ (dats m 0 c).leaves 2 t)

theorem leaves_0 (c : Dev nD) (t : Fin cfg0.N) :
    (dats m 0 c).leaves 0 t = owns (c : Thread nD τ) ((cfg0.win 0).stage (cfg0.slots t 0)) fullShare (iblk m c 0 t) := by
  unfold Dat.leaves; rw [live_0 t]; dsimp only; rw [after_0]
theorem leaves_1 (c : Dev nD) (t : Fin cfg0.N) :
    (dats m 0 c).leaves 1 t = iprop(∃ d, owns (c : Thread nD τ) ((cfg0.win 1).stage (cfg0.slots t 1)) fullShare (win0_1.fill (grid0.coords t) d (iblk m c 1 t))) := by
  unfold Dat.leaves; rw [live_1 t]; dsimp only; rw [after_1]; unfold slab; simp only [Window.cut_fill]
theorem leaves_2 (c : Dev nD) (t : Fin cfg0.N) :
    (dats m 0 c).leaves 2 t = iprop(∃ d, owns (c : Thread nD τ) ((cfg0.win 2).stage (cfg0.slots t 2)) fullShare (win0_2.fill (grid0.coords t) d (win0_2.cut (grid0.coords t) (outBlock m c t)))) := by
  unfold Dat.leaves; rw [live_2 t]; dsimp only; rw [after_2]

theorem Phi_castSucc (c : Dev nD) (t : Fin cfg0.N) : (dats m 0 c).Φ t.castSucc = PhiS m c t.val := by
  dsimp only [dats]; simp only [Fin.coe_castSucc]

set_option maxHeartbeats 2000000 in
/-- The body at any point: the case is read off the point; the slab's buffer arrives just fetched, the output
    block's at anything; the scratch arrives at anything (first point) or at the narrowed left operand, and leaves
    at the narrowed left operand. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1]
  rw [leaves_0, leaves_1, leaves_2]
  rw [show (dats m 0 c).owesAt () t.succ = (dats m 0 c).owesAt () t.castSucc from rfl]
  rw [show (dats m 0 c).Φ t.succ = PhiS m c (t.val + 1) from rfl, PhiS_pos m c (t.val + 1) (Nat.succ_ne_zero _), Phi_castSucc]
  have hN : t.val < 40 := lt_of_lt_of_eq t.isLt (show cfg0.N = 40 from N_0)
  by_cases h0 : t.val = 0
  · have hc1 : condFirst (grid0.coords t) := (hcondFirst t).mpr h0
    have hc2 : condBody (grid0.coords t) := (hcondBody t).mpr (by omega)
    have hc3 : ¬condTail (grid0.coords t) := fun h => by have := (hcondTail t).mp h; omega
    have hl : lhsNarrow m c = k0_pay1 (iblk m c 0 t) := by
      have ht : t = t₀ := Fin.ext h0
      rw [ht]; rfl
    rw [show PhiS m c t.val = Pipeline.ΦA spec0 c from by rw [h0]; rfl, PhiA_eq]
    iintro ⟨⟨⟨%ds, HS⟩, Hg⟩, Ho, ⟨%d0, H0⟩, ⟨%d1, H1⟩, ⟨%d2, H2⟩⟩
    iapply (runFirst c (grid0.coords t) _ _ _ _ _ _ _ _ hc1 hc2 hc3 (iblk m c 0 t) (win0_1.fill (grid0.coords t) d1 (iblk m c 1 t)) Set.univ _)
    isplitl [H0]; · iexact H0
    isplitl [H1]; · iexact H1
    isplitl [H2]; · iexists _; iexact H2
    isplitl [HS]; · iexists _; iexact HS
    iintro ⟨H0, H1, H2, HS⟩
    isplitl [HS Hg]
    · isplitl [HS]
      · rw [hl]; iexact HS
      · iexact Hg
    isplitl [Ho]; · iexact Ho
    isplitl [H0]; · iexact H0
    isplitl [H1]; · iexists d1; iexact H1
    iexists (outBlock m c t)
    rw [Window.fill_cut, outBlock_lt m c t (by omega) d1, hl]
    iexact H2
  · rw [PhiS_pos m c t.val h0]
    by_cases h39 : t.val = 39
    · have hc1 : ¬condFirst (grid0.coords t) := fun h => h0 ((hcondFirst t).mp h)
      have hc2 : ¬condBody (grid0.coords t) := fun h => by have := (hcondBody t).mp h; omega
      have hc3 : condTail (grid0.coords t) := (hcondTail t).mpr h39
      iintro ⟨⟨HS, Hg⟩, Ho, ⟨%d0, H0⟩, ⟨%d1, H1⟩, ⟨%d2, H2⟩⟩
      iapply (runLast c (grid0.coords t) _ _ _ _ _ _ _ _ hc1 hc2 hc3 (iblk m c 0 t) (win0_1.fill (grid0.coords t) d1 (iblk m c 1 t)) (lhsNarrow m c) Set.univ _)
      isplitl [H0]; · iexact H0
      isplitl [H1]; · iexact H1
      isplitl [H2]; · iexists _; iexact H2
      isplitl [HS]; · iexact HS
      iintro ⟨H0, H1, ⟨%X, %hX, H2⟩, HS⟩
      isplitl [HS Hg]
      · isplitl [HS]
        · iexact HS
        · iexact Hg
      isplitl [Ho]; · iexact Ho
      isplitl [H0]; · iexact H0
      isplitl [H1]; · iexists d1; iexact H1
      iexists X
      rw [win0_2.fill_congr_cut (grid0.coords t) (cut_out_last m c t h39 d1 X hX)]
      iexact H2
    · have hc1 : ¬condFirst (grid0.coords t) := fun h => h0 ((hcondFirst t).mp h)
      have hc2 : condBody (grid0.coords t) := (hcondBody t).mpr (by omega)
      have hc3 : ¬condTail (grid0.coords t) := fun h => h39 ((hcondTail t).mp h)
      iintro ⟨⟨HS, Hg⟩, Ho, ⟨%d0, H0⟩, ⟨%d1, H1⟩, ⟨%d2, H2⟩⟩
      iapply (runMid c (grid0.coords t) _ _ _ _ _ _ _ _ hc1 hc2 hc3 (iblk m c 0 t) (win0_1.fill (grid0.coords t) d1 (iblk m c 1 t)) (lhsNarrow m c) Set.univ _)
      isplitl [H0]; · iexact H0
      isplitl [H1]; · iexact H1
      isplitl [H2]; · iexists _; iexact H2
      isplitl [HS]; · iexact HS
      iintro ⟨H0, H1, H2, HS⟩
      isplitl [HS Hg]
      · isplitl [HS]
        · iexact HS
        · iexact Hg
      isplitl [Ho]; · iexact Ho
      isplitl [H0]; · iexact H0
      isplitl [H1]; · iexists d1; iexact H1
      iexists (outBlock m c t)
      rw [Window.fill_cut, outBlock_lt m c t (by omega) d1]
      iexact H2

/-- The library's body obligation, at every point. -/
theorem body_obligation (c : Dev nD) : BodyObligationLoose (dats (F := F) m 0 c) (defs₀ (F := F)) Variants.none () Set.univ := fun t => by
  rw [bigSep_W0, bigSep_W0]
  exact sound_body m c t

/-- What the launch hands the region is the invariant before the first point, -/
theorem hin (c : Dev nD) : Pipeline.ΦA spec0 c ⊢ (dats m 0 c).Φ 0 := by
  rw [show (dats m 0 c).Φ 0 = PhiS m c 0 from rfl]
  exact Idealize.SL.BI.Entails.refl _

/-- and after the last point the invariant gives it back, the scratch's contents forgotten. -/
theorem hout (c : Dev nD) : (dats m 0 c).Φ (Fin.last cfg0.N) ⊢ Pipeline.ΦA spec0 c := by
  rw [show (dats m 0 c).Φ (Fin.last cfg0.N) = PhiS m c (Fin.last cfg0.N).val from rfl,
    PhiS_pos m c _ (by rw [Fin.val_last]; have : cfg0.N = 40 := N_0; omega), PhiA_eq]
  iintro ⟨HS, Hg⟩
  isplitl [HS]
  · iexists _; iexact HS
  iexact Hg

/-! ## The run and the frame -/

set_option backward.isDefEq.respectTransparency.types false in
/-- Every weakly fair execution of the program terminates, faulting nowhere, with every array of the pipeline at what
    the proof data's write-backs leave and every other buffer as the closing reshape leaves it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => body_obligation m c) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The frame: the program runs to the end and its two arguments end as they began. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.Kernel.Slab

end
-- ==== Proof.IdealCases.lean ====
/-
  The body of the matrix-product kernel, run once per control case, at any float instance.
  The grid has forty points, one per 128-row slab of the right operand; the body's three branches depend on the
  point alone, and each case leaves the four buffers it is called with — the left operand's, the slab's, the
  output block's and the bf16 scratch — at contents stated here through the body's named payloads.
-/
import proofs.«114906_g36575941493117_cont_8to1_b_730_29_alg».proof.Proof.Gen.KernelIdeal.Launch
import proofs.«114906_g36575941493117_cont_8to1_b_730_29_alg».proof.Proof.Gen.KernelIdeal.Skeleton
import proofs.«114906_g36575941493117_cont_8to1_b_730_29_alg».proof.Proof.Gen.KernelIdeal.Points
import proofs.«114906_g36575941493117_cont_8to1_b_730_29_alg».proof.Proof.Gen.KernelIdeal.Frame
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Slab

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! ## The three control cases of the body

The body branches on the grid coordinate alone: at the first point it also copies the left operand, narrowed to
bf16, into the scratch; at every point but the last it contracts the whole 128-row slab against the scratch and
stores the transposed product over the whole output block; at the last point it contracts only the slab's first
eight rows and stores into the block's first eight columns. -/

abbrev condFirst (i : grid0.Coords) : Prop := (Scalar.cmpi .ne (Scalar.extui (Scalar.cmpi .eq (BitVec.ofNat 32 (i 0).val) 0#32)) 0#32) = 1#1
abbrev condBody (i : grid0.Coords) : Prop := k0_cond2 i = 1#1
abbrev condTail (i : grid0.Coords) : Prop := k0_cond3 i = 1#1

/-- The first branch is taken at point 0 only, -/
theorem hcondFirst : ∀ t : Fin cfg0.N, condFirst (grid0.coords t) ↔ t.val = 0 :=
  (by decide +kernel : ∀ t : Fin grid0.N, condFirst (grid0.coords t) ↔ t.val = 0)
/-- the second at the points before the last, -/
theorem hcondBody : ∀ t : Fin cfg0.N, condBody (grid0.coords t) ↔ t.val < 39 :=
  (by decide +kernel : ∀ t : Fin grid0.N, condBody (grid0.coords t) ↔ t.val < 39)
/-- the third at the last. -/
theorem hcondTail : ∀ t : Fin cfg0.N, condTail (grid0.coords t) ↔ t.val = 39 :=
  (by decide +kernel : ∀ t : Fin grid0.N, condTail (grid0.coords t) ↔ t.val = 39)

theorem zeros2 : (![0, 0] : Fin 2 → Nat) = fun _ => 0 := funext fun a => by fin_cases a <;> rfl

/-- The first eight rows of the slab's staging buffer, -/
abbrev rowsHead : Rect S128x20000 := Rect.unit (s := S128x20000) ![0, 0] S8x20000.size inb_S128x20000_S8x20000_0_0
/-- and the first eight columns of the output block's. -/
abbrev colsHead : Rect S32x128 := Rect.unit (s := S32x128) ![0, 0] S32x8.size inb_S32x128_S32x8_0_0

set_option maxHeartbeats 1000000 in
/-- A point before the last, not the first: the output block's buffer ends at the transposed product of the slab
    with the scratch; the other three buffers are left as found. -/
theorem runMid (c : Dev nD) (i : grid0.Coords) (arg1 : Memref sig .tc .vmem S32x20000 .f32) (harg1 : arg1.IsWhole) (arg2 : Memref sig .tc .vmem S128x20000 .f32) (harg2 : arg2.IsWhole) (arg3 : Memref sig .tc .vmem S32x128 .f32) (harg3 : arg3.IsWhole) (arg4 : Memref sig .tc .vmem S32x20000 .bf16) (harg4 : arg4.IsWhole)
    (hc1 : ¬condFirst i) (hc2 : condBody i) (hc3 : ¬condTail i)
    (x0 : Vec F S32x20000 .f32) (x1 : Vec F S128x20000 .f32) (xs : Vec F S32x20000 .bf16) (E : Set ℕ) (K : PUnit → sProp 𝕄) :
    iprop(owns (c : Thread nD τ) arg1 fullShare x0 ∗ owns (c : Thread nD τ) arg2 fullShare x1 ∗ (∃ d, owns (c : Thread nD τ) arg3 fullShare d) ∗ owns (c : Thread nD τ) arg4 fullShare xs
        ∗ (iprop(owns (c : Thread nD τ) arg1 fullShare x0 ∗ owns (c : Thread nD τ) arg2 fullShare x1 ∗ owns (c : Thread nD τ) arg3 fullShare (k0_pay2 x1 xs) ∗ owns (c : Thread nD τ) arg4 fullShare xs) -∗ K ⟨⟩))
      ⊢ wp frame (wpE (defs₀ (F := F)) Variants.none c none) E (cc0__mm_kernel i arg1 harg1 arg2 harg2 arg3 harg3 arg4 harg4) K := by
  simp only [cc0__mm_kernel_eq_skeleton]; unfold cc0__mm_kernel_skel
  unfold owns
  iintro ⟨⟨%f0, %hf0, H0⟩, ⟨%f1, %hf1, H1⟩, ⟨%d2, %f2, -, H2⟩, ⟨%fs, %hfs, HS⟩, Hk⟩
  obtain rfl := harg1.eq_unread hf0; obtain rfl := harg2.eq_unread hf1; obtain rfl := harg4.eq_unread hfs
  sl_exec (disch := first | exact hc1 | exact hc2 | exact hc3)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr
    swap; · iexact H2
    ipureintro
    rw [View.read_writes_eq_canon _ _ _ (fun y => ⟨_, List.mem_singleton_self _, View.mem_set_unit_zero zeros2 Facts₀.inb_S32x128_S32x128_0_0 y⟩),
      View.canon_unit_zero (S := S32x128) zeros2]
    simp only [View.readAt_eq_ld, harg2.read_unread, harg4.read_unread, View.ld_unit_zero (S := S128x20000) zeros2,
      View.ld_unit_zero (S := S32x20000) zeros2]
  iexists _; isplitr; · ipureintro; exact harg4.read_unread _
  iexact HS

set_option maxHeartbeats 1000000 in
/-- The first point: the scratch ends at the left operand narrowed, and the output block's buffer at the transposed
    product of the slab with THAT. -/
theorem runFirst (c : Dev nD) (i : grid0.Coords) (arg1 : Memref sig .tc .vmem S32x20000 .f32) (harg1 : arg1.IsWhole) (arg2 : Memref sig .tc .vmem S128x20000 .f32) (harg2 : arg2.IsWhole) (arg3 : Memref sig .tc .vmem S32x128 .f32) (harg3 : arg3.IsWhole) (arg4 : Memref sig .tc .vmem S32x20000 .bf16) (harg4 : arg4.IsWhole)
    (hc1 : condFirst i) (hc2 : condBody i) (hc3 : ¬condTail i)
    (x0 : Vec F S32x20000 .f32) (x1 : Vec F S128x20000 .f32) (E : Set ℕ) (K : PUnit → sProp 𝕄) :
    iprop(owns (c : Thread nD τ) arg1 fullShare x0 ∗ owns (c : Thread nD τ) arg2 fullShare x1 ∗ (∃ d, owns (c : Thread nD τ) arg3 fullShare d) ∗ (∃ d, owns (c : Thread nD τ) arg4 fullShare d)
        ∗ (iprop(owns (c : Thread nD τ) arg1 fullShare x0 ∗ owns (c : Thread nD τ) arg2 fullShare x1 ∗ owns (c : Thread nD τ) arg3 fullShare (k0_pay2 x1 (k0_pay1 x0)) ∗ owns (c : Thread nD τ) arg4 fullShare (k0_pay1 x0)) -∗ K ⟨⟩))
      ⊢ wp frame (wpE (defs₀ (F := F)) Variants.none c none) E (cc0__mm_kernel i arg1 harg1 arg2 harg2 arg3 harg3 arg4 harg4) K := by
  simp only [cc0__mm_kernel_eq_skeleton]; unfold cc0__mm_kernel_skel
  unfold owns
  iintro ⟨⟨%f0, %hf0, H0⟩, ⟨%f1, %hf1, H1⟩, ⟨%d2, %f2, -, H2⟩, ⟨%ds, %fs, -, HS⟩, Hk⟩
  obtain rfl := harg1.eq_unread hf0; obtain rfl := harg2.eq_unread hf1
  sl_exec (disch := first | exact hc1 | exact hc2 | exact hc3)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr
    swap; · iexact H2
    ipureintro
    sl_unfold_words
    rw [View.read_writes_eq_canon _ _ _ (fun y => ⟨_, List.mem_singleton_self _, View.mem_set_unit_zero zeros2 Facts₀.inb_S32x128_S32x128_0_0 y⟩),
      View.canon_unit_zero (S := S32x128) zeros2, View.readCov_unit_zero (S := S32x20000) _ zeros2]
    simp only [View.readAt_eq_ld, harg1.read_unread, harg2.read_unread, View.ld_unit_zero (S := S128x20000) zeros2,
      View.ld_unit_zero (S := S32x20000) zeros2]
  iexists _; isplitr
  swap; · iexact HS
  ipureintro
  sl_unfold_words
  rw [View.read_writes_eq_canon _ _ _ (fun y => ⟨_, List.mem_singleton_self _, View.mem_set_unit_zero zeros2 Facts₀.inb_S32x20000_S32x20000_0_0 y⟩),
    View.canon_unit_zero (S := S32x20000) zeros2]
  simp only [View.readAt_eq_ld, harg1.read_unread, View.ld_unit_zero (S := S32x20000) zeros2]

set_option maxHeartbeats 1000000 in
/-- The last point: the output block's buffer ends, on its first eight columns, at the product of the scratch with
    the slab's first eight rows; nothing is said of its other columns. -/
theorem runLast (c : Dev nD) (i : grid0.Coords) (arg1 : Memref sig .tc .vmem S32x20000 .f32) (harg1 : arg1.IsWhole) (arg2 : Memref sig .tc .vmem S128x20000 .f32) (harg2 : arg2.IsWhole) (arg3 : Memref sig .tc .vmem S32x128 .f32) (harg3 : arg3.IsWhole) (arg4 : Memref sig .tc .vmem S32x20000 .bf16) (harg4 : arg4.IsWhole)
    (hc1 : ¬condFirst i) (hc2 : ¬condBody i) (hc3 : condTail i)
    (x0 : Vec F S32x20000 .f32) (x1 : Vec F S128x20000 .f32) (xs : Vec F S32x20000 .bf16) (E : Set ℕ) (K : PUnit → sProp 𝕄) :
    iprop(owns (c : Thread nD τ) arg1 fullShare x0 ∗ owns (c : Thread nD τ) arg2 fullShare x1 ∗ (∃ d, owns (c : Thread nD τ) arg3 fullShare d) ∗ owns (c : Thread nD τ) arg4 fullShare xs
        ∗ (iprop(owns (c : Thread nD τ) arg1 fullShare x0 ∗ owns (c : Thread nD τ) arg2 fullShare x1
            ∗ (∃ X : Vec F S32x128 .f32, ⌜∀ x, X (colsHead.emb x) = k0_pay3 (View.ld x1 rowsHead) xs x⌝ ∗ owns (c : Thread nD τ) arg3 fullShare X)
            ∗ owns (c : Thread nD τ) arg4 fullShare xs) -∗ K ⟨⟩))
      ⊢ wp frame (wpE (defs₀ (F := F)) Variants.none c none) E (cc0__mm_kernel i arg1 harg1 arg2 harg2 arg3 harg3 arg4 harg4) K := by
  simp only [cc0__mm_kernel_eq_skeleton]; unfold cc0__mm_kernel_skel
  unfold owns
  iintro ⟨⟨%f0, %hf0, H0⟩, ⟨%f1, %hf1, H1⟩, ⟨%d2, %f2, -, H2⟩, ⟨%fs, %hfs, HS⟩, Hk⟩
  obtain rfl := harg1.eq_unread hf0; obtain rfl := harg2.eq_unread hf1; obtain rfl := harg4.eq_unread hfs
  sl_exec (disch := first | exact hc1 | exact hc2 | exact hc3)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr
    swap
    · iexists _; isplitr
      swap; · iexact H2
      ipureintro; rfl
    ipureintro
    intro x
    rw [View.read_writes_cons_emb]
    simp only [View.readAt_eq_ld, harg2.read_unread, harg4.read_unread, View.ld_unit_zero (S := S32x20000) zeros2]
  iexists _; isplitr; · ipureintro; exact harg4.read_unread _
  iexact HS

end Cert.KernelIdeal.Slab

end
-- ==== Proof.IdealStages.lean ====
/-
  The pipeline of the matrix-product kernel, point by point, at any float instance: what each staging buffer and the
  bf16 scratch hold around the body at each of the forty grid points, the body's obligation there, and from these the
  program's run — it terminates, faults nowhere, leaves its arguments as it found them, and its result array is what
  the forty write-backs leave.
  The right operand's 5000 rows are fetched in slabs of 128, so the last slab overhangs the array by 120 rows and the
  last output block by 120 columns: the fetch leaves those rows of the staging buffer at words nothing names, and the
  body at the last point reads only the slab's first eight rows and writes only the block's first eight columns —
  exactly the parts inside the arrays — so nothing that is written back depends on them.
-/
import proofs.«114906_g36575941493117_cont_8to1_b_730_29_alg».proof.Proof.Gen.KernelIdeal.Launch
import proofs.«114906_g36575941493117_cont_8to1_b_730_29_alg».proof.Proof.Gen.KernelIdeal.Skeleton
import proofs.«114906_g36575941493117_cont_8to1_b_730_29_alg».proof.Proof.Gen.KernelIdeal.Points
import proofs.«114906_g36575941493117_cont_8to1_b_730_29_alg».proof.Proof.Gen.KernelIdeal.Frame
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic
import proofs.«114906_g36575941493117_cont_8to1_b_730_29_alg».proof.Proof.IdealCases

set_option maxRecDepth 16384

noncomputable section

namespace Cert.KernelIdeal.Slab

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the buffers hold, point by point -/

/-- The first grid point. -/
abbrev t₀ : Fin cfg0.N := ⟨0, by decide⟩

/-- The left operand, as the region finds it: its one block (the whole array, fetched once). -/
def lhs (c : Dev nD) : Vec F S32x20000 .f32 := iblk m c 0 t₀

/-- What the scratch holds from the first point on: the left operand narrowed to bf16. -/
def lhsNarrow (c : Dev nD) : Vec F S32x20000 .bf16 := k0_pay1 (lhs m c)

/-- The slab's staging buffer at point `t`: rows `128 t ‥ 128 t + 127` of the right operand where those are
    rows of it (at the last point the first eight), a fixed word below them. -/
def slab (c : Dev nD) (t : Fin cfg0.N) : Vec F S128x20000 .f32 :=
  win0_1.fill (grid0.coords t) (fun _ => Scalar.ofBits .f32 0#32) (iblk m c 1 t)

/-- The output block's staging buffer after the body at point `t`: before the last point the transposed product of
    the slab with the narrowed left operand; at the last point the product of the narrowed left operand with the
    slab's first eight rows on the first eight columns, a fixed word on the others. -/
def outBlock (c : Dev nD) (t : Fin cfg0.N) : Vec F S32x128 .f32 :=
  if t.val < 39 then k0_pay2 (slab m c t) (lhsNarrow m c)
  else colsHead.overlay (fun _ => Scalar.ofBits .f32 0#32) (k0_pay3 (View.ld (slab m c t) rowsHead) (lhsNarrow m c))

/-- The scratch as a memref. -/
abbrev scratch : Memref sig .tc .vmem S32x20000 .bf16 := Memref.whole cc0_scratch0

/-- The region invariant before position `n`: before the first point the scratch holds anything; afterwards the
    narrowed left operand. -/
def PhiS (c : Dev nD) : ℕ → sProp 𝕄
  | 0 => Pipeline.ΦA spec0 c
  | _ + 1 => iprop(owns (c : Thread nD τ) scratch fullShare (lhsNarrow m c) ∗ (∃ r, prngReg c r))

theorem PhiA_eq (c : Dev nD) :
    (Pipeline.ΦA spec0 c : sProp 𝕄) = iprop(iprop((∃ d, owns (c : Thread nD τ) scratch fullShare d)) ∗ (∃ r, prngReg c r)) := by
  unfold Pipeline.ΦA; rw [scopedRest0_eq]; simp only [scratch, owns_whole]; try rfl

theorem PhiS_pos (c : Dev nD) (n : ℕ) (hn : n ≠ 0) :
    PhiS m c n = iprop(owns (c : Thread nD τ) scratch fullShare (lhsNarrow m c) ∗ (∃ r, prngReg c r)) := by
  cases n with
  | zero => exact absurd rfl hn
  | succ n => rfl

/-- The proof data of the pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => slab m c t
    | ⟨2, _⟩ => outBlock m c t
  Φ t := PhiS m c t.val
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = slab m c t := by dsimp only [dats]
theorem after_2 (c : Dev nD) (t : Fin cfg0.N) : (dats m 0 c).after 2 t = outBlock m c t := by dsimp only [dats]

/-- The left operand's buffer holds its block at every point. -/
theorem before_0 (c : Dev nD) (t : Fin cfg0.N) (d) : (dats m 0 c).before 0 t d = iblk m c 0 t :=
  before0_0_of m (dats m 0 c) (A_eq m c 0) (after_0 m c) t d

/-- The slab's buffer was fetched at this point: the slab on the rows inside the array, `d` below. -/
theorem before_1 (c : Dev nD) (t : Fin cfg0.N) (d) :
    (dats m 0 c).before 1 t d = win0_1.fill (grid0.coords t) d (iblk m c 1 t) := by
  unfold Dat.before; rw [if_pos (fetch0_1 t)]
  unfold Dat.fetched Dat.blockOf iblk; rw [A_eq]

/-- No window is idle anywhere: the output block is stored at every point. -/
theorem live_0 : ∀ t : Fin cfg0.N, cfg0.idle 0 (grid0.coords t) = false := by decide +kernel
theorem live_1 : ∀ t : Fin cfg0.N, cfg0.idle 1 (grid0.coords t) = false := by decide +kernel
theorem live_2 : ∀ t : Fin cfg0.N, cfg0.idle 2 (grid0.coords t) = false := by decide +kernel

/-- Before the last point the slab's block lies inside the array, -/
theorem slab_uncut : ∀ t : Fin cfg0.N, t.val < 39 → ∀ a, (cfg0.win 1).clip (grid0.coords t) a = none :=
  (by decide +kernel : ∀ t : Fin grid0.N, t.val < 39 → ∀ a, win0_1.clip (grid0.coords t) a = none)
/-- at the last its first eight rows do, -/
theorem slab_tail : ∀ t : Fin cfg0.N, t.val = 39 → win0_1.xsize (grid0.coords t) 0 = 8 ∧ win0_1.xsize (grid0.coords t) 1 = 20000 :=
  (by decide +kernel : ∀ t : Fin grid0.N, t.val = 39 → win0_1.xsize (grid0.coords t) 0 = 8 ∧ win0_1.xsize (grid0.coords t) 1 = 20000)
/-- and the output block's first eight columns. -/
theorem out_tail : ∀ t : Fin cfg0.N, t.val = 39 → win0_2.xsize (grid0.coords t) 0 = 32 ∧ win0_2.xsize (grid0.coords t) 1 = 8 :=
  (by decide +kernel : ∀ t : Fin grid0.N, t.val = 39 → win0_2.xsize (grid0.coords t) 0 = 32 ∧ win0_2.xsize (grid0.coords t) 1 = 8)

/-- Whatever lay below the array's end, the slab's first eight rows at the last point are the array's. -/
theorem ld_slab_tail (c : Dev nD) (t : Fin cfg0.N) (ht : t.val = 39) (d d' : S128x20000.Idx → Elt F .f32) :
    View.ld (win0_1.fill (grid0.coords t) d (iblk m c 1 t)) rowsHead = View.ld (win0_1.fill (grid0.coords t) d' (iblk m c 1 t)) rowsHead := by
  funext x
  have hm : win0_1.moved (grid0.coords t) (rowsHead.idx x) = true := (win0_1.moved_iff _ _).mpr fun a => by
    obtain ⟨h0, h1⟩ := slab_tail t ht
    match a with
    | ⟨0, _⟩ =>
      refine lt_of_lt_of_eq ?_ h0.symm
      have h8 : (x 0).val < 8 := (x 0).isLt
      show 0 + 1 * (x 0).val < 8
      omega
    | ⟨1, _⟩ =>
      refine lt_of_lt_of_eq ?_ h1.symm
      have h8 : (x 1).val < 20000 := (x 1).isLt
      show 0 + 1 * (x 1).val < 20000
      omega
  show win0_1.fill (grid0.coords t) d _ (rowsHead.idx x) = win0_1.fill (grid0.coords t) d' _ (rowsHead.idx x)
  unfold Window.fill; rw [dif_pos hm, dif_pos hm]

/-- Before the last point nothing of the slab's buffer lies below the array's end: it holds the slab whatever it
    held before the fetch. -/
theorem fill_slab_uncut (c : Dev nD) (t : Fin cfg0.N) (ht : t.val < 39) (d d' : S128x20000.Idx → Elt F .f32) :
    win0_1.fill (grid0.coords t) d (iblk m c 1 t) = win0_1.fill (grid0.coords t) d' (iblk m c 1 t) := by
  funext j
  have hm : win0_1.moved (grid0.coords t) j = true := (win0_1.moved_iff _ j).mpr fun a => by
    have := (j a).isLt; unfold Window.xsize; rw [slab_uncut t ht a]; exact this
  unfold Window.fill; rw [dif_pos hm, dif_pos hm]

/-- So before the last point the output block is the transposed product over the slab's buffer as the body finds it, -/
theorem outBlock_lt (c : Dev nD) (t : Fin cfg0.N) (ht : t.val < 39) (d : S128x20000.Idx → Elt F .f32) :
    outBlock m c t = k0_pay2 (win0_1.fill (grid0.coords t) d (iblk m c 1 t)) (lhsNarrow m c) := by
  unfold outBlock slab; rw [if_pos ht, fill_slab_uncut m c t ht _ d]

/-- and at the last point the eight-column product laid over the fixed word. -/
theorem outBlock_last (c : Dev nD) (t : Fin cfg0.N) (ht : t.val = 39) :
    outBlock m c t = colsHead.overlay (fun _ => Scalar.ofBits .f32 0#32) (k0_pay3 (View.ld (slab m c t) rowsHead) (lhsNarrow m c)) := by
  unfold outBlock; rw [if_neg (by omega)]

/-- At the last point, contents that carry the eight-column product on the block's first eight columns agree with
    the output block on the part the write-back moves (which IS those columns). -/
theorem cut_out_last (c : Dev nD) (t : Fin cfg0.N) (ht : t.val = 39) (d : S128x20000.Idx → Elt F .f32) (X : Vec F S32x128 .f32)
    (hX : ∀ x, X (colsHead.emb x) = k0_pay3 (View.ld (win0_1.fill (grid0.coords t) d (iblk m c 1 t)) rowsHead) (lhsNarrow m c) x) :
    win0_2.cut (grid0.coords t) X = win0_2.cut (grid0.coords t) (outBlock m c t) := by
  funext j
  obtain ⟨h0, h1⟩ := out_tail t ht
  let x : S32x8.Idx := fun a => match a with
    | ⟨0, _⟩ => ⟨(j 0).val, lt_of_lt_of_eq (j 0).isLt h0⟩
    | ⟨1, _⟩ => ⟨(j 1).val, lt_of_lt_of_eq (j 1).isLt h1⟩
  have hx : win0_2.xinj (grid0.coords t) j = colsHead.emb x := funext fun a => Fin.ext (by
    match a with
    | ⟨0, _⟩ => show (j 0).val = 0 + 1 * (j 0).val; omega
    | ⟨1, _⟩ => show (j 1).val = 0 + 1 * (j 1).val; omega)
  show X (win0_2.xinj (grid0.coords t) j) = outBlock m c t (win0_2.xinj (grid0.coords t) j)
  rw [hx, hX x, outBlock_last m c t ht, Rect.overlay_emb]
  unfold slab
  rw [ld_slab_tail m c t ht d _]

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) ((cfg0.win 0).stage (cfg0.slots t 0)) fullShare ((dats m 0 c).before 0 t d))
    ∗ (∃ d, owns (c : Thread nD τ) ((cfg0.win 1).stage (cfg0.slots t 1)) fullShare ((dats m 0 c).before 1 t d))
    ∗ (∃ d, owns (c : Thread nD τ) ((cfg0.win 2).stage (cfg0.slots t 2)) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ (dats m 0 c).leaves 0 t ∗ (dats m 0 c).leaves 1 t ∗ (dats m 0 c).leaves 2 t)

theorem leaves_0 (c : Dev nD) (t : Fin cfg0.N) :
    (dats m 0 c).leaves 0 t = owns (c : Thread nD τ) ((cfg0.win 0).stage (cfg0.slots t 0)) fullShare (iblk m c 0 t) := by
  unfold Dat.leaves; rw [live_0 t]; dsimp only; rw [after_0]
theorem leaves_1 (c : Dev nD) (t : Fin cfg0.N) :
    (dats m 0 c).leaves 1 t = iprop(∃ d, owns (c : Thread nD τ) ((cfg0.win 1).stage (cfg0.slots t 1)) fullShare (win0_1.fill (grid0.coords t) d (iblk m c 1 t))) := by
  unfold Dat.leaves; rw [live_1 t]; dsimp only; rw [after_1]; unfold slab; simp only [Window.cut_fill]
theorem leaves_2 (c : Dev nD) (t : Fin cfg0.N) :
    (dats m 0 c).leaves 2 t = iprop(∃ d, owns (c : Thread nD τ) ((cfg0.win 2).stage (cfg0.slots t 2)) fullShare (win0_2.fill (grid0.coords t) d (win0_2.cut (grid0.coords t) (outBlock m c t)))) := by
  unfold Dat.leaves; rw [live_2 t]; dsimp only; rw [after_2]

theorem Phi_castSucc (c : Dev nD) (t : Fin cfg0.N) : (dats m 0 c).Φ t.castSucc = PhiS m c t.val := by
  dsimp only [dats]; simp only [Fin.coe_castSucc]

set_option maxHeartbeats 2000000 in
/-- The body at any point: the case is read off the point; the slab's buffer arrives just fetched, the output
    block's at anything; the scratch arrives at anything (first point) or at the narrowed left operand, and leaves
    at the narrowed left operand. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1]
  rw [leaves_0, leaves_1, leaves_2]
  rw [show (dats m 0 c).owesAt () t.succ = (dats m 0 c).owesAt () t.castSucc from rfl]
  rw [show (dats m 0 c).Φ t.succ = PhiS m c (t.val + 1) from rfl, PhiS_pos m c (t.val + 1) (Nat.succ_ne_zero _), Phi_castSucc]
  have hN : t.val < 40 := lt_of_lt_of_eq t.isLt (show cfg0.N = 40 from N_0)
  by_cases h0 : t.val = 0
  · have hc1 : condFirst (grid0.coords t) := (hcondFirst t).mpr h0
    have hc2 : condBody (grid0.coords t) := (hcondBody t).mpr (by omega)
    have hc3 : ¬condTail (grid0.coords t) := fun h => by have := (hcondTail t).mp h; omega
    have hl : lhsNarrow m c = k0_pay1 (iblk m c 0 t) := by
      have ht : t = t₀ := Fin.ext h0
      rw [ht]; rfl
    rw [show PhiS m c t.val = Pipeline.ΦA spec0 c from by rw [h0]; rfl, PhiA_eq]
    iintro ⟨⟨⟨%ds, HS⟩, Hg⟩, Ho, ⟨%d0, H0⟩, ⟨%d1, H1⟩, ⟨%d2, H2⟩⟩
    iapply (runFirst c (grid0.coords t) _ _ _ _ _ _ _ _ hc1 hc2 hc3 (iblk m c 0 t) (win0_1.fill (grid0.coords t) d1 (iblk m c 1 t)) Set.univ _)
    isplitl [H0]; · iexact H0
    isplitl [H1]; · iexact H1
    isplitl [H2]; · iexists _; iexact H2
    isplitl [HS]; · iexists _; iexact HS
    iintro ⟨H0, H1, H2, HS⟩
    isplitl [HS Hg]
    · isplitl [HS]
      · rw [hl]; iexact HS
      · iexact Hg
    isplitl [Ho]; · iexact Ho
    isplitl [H0]; · iexact H0
    isplitl [H1]; · iexists d1; iexact H1
    iexists (outBlock m c t)
    rw [Window.fill_cut, outBlock_lt m c t (by omega) d1, hl]
    iexact H2
  · rw [PhiS_pos m c t.val h0]
    by_cases h39 : t.val = 39
    · have hc1 : ¬condFirst (grid0.coords t) := fun h => h0 ((hcondFirst t).mp h)
      have hc2 : ¬condBody (grid0.coords t) := fun h => by have := (hcondBody t).mp h; omega
      have hc3 : condTail (grid0.coords t) := (hcondTail t).mpr h39
      iintro ⟨⟨HS, Hg⟩, Ho, ⟨%d0, H0⟩, ⟨%d1, H1⟩, ⟨%d2, H2⟩⟩
      iapply (runLast c (grid0.coords t) _ _ _ _ _ _ _ _ hc1 hc2 hc3 (iblk m c 0 t) (win0_1.fill (grid0.coords t) d1 (iblk m c 1 t)) (lhsNarrow m c) Set.univ _)
      isplitl [H0]; · iexact H0
      isplitl [H1]; · iexact H1
      isplitl [H2]; · iexists _; iexact H2
      isplitl [HS]; · iexact HS
      iintro ⟨H0, H1, ⟨%X, %hX, H2⟩, HS⟩
      isplitl [HS Hg]
      · isplitl [HS]
        · iexact HS
        · iexact Hg
      isplitl [Ho]; · iexact Ho
      isplitl [H0]; · iexact H0
      isplitl [H1]; · iexists d1; iexact H1
      iexists X
      rw [win0_2.fill_congr_cut (grid0.coords t) (cut_out_last m c t h39 d1 X hX)]
      iexact H2
    · have hc1 : ¬condFirst (grid0.coords t) := fun h => h0 ((hcondFirst t).mp h)
      have hc2 : condBody (grid0.coords t) := (hcondBody t).mpr (by omega)
      have hc3 : ¬condTail (grid0.coords t) := fun h => h39 ((hcondTail t).mp h)
      iintro ⟨⟨HS, Hg⟩, Ho, ⟨%d0, H0⟩, ⟨%d1, H1⟩, ⟨%d2, H2⟩⟩
      iapply (runMid c (grid0.coords t) _ _ _ _ _ _ _ _ hc1 hc2 hc3 (iblk m c 0 t) (win0_1.fill (grid0.coords t) d1 (iblk m c 1 t)) (lhsNarrow m c) Set.univ _)
      isplitl [H0]; · iexact H0
      isplitl [H1]; · iexact H1
      isplitl [H2]; · iexists _; iexact H2
      isplitl [HS]; · iexact HS
      iintro ⟨H0, H1, H2, HS⟩
      isplitl [HS Hg]
      · isplitl [HS]
        · iexact HS
        · iexact Hg
      isplitl [Ho]; · iexact Ho
      isplitl [H0]; · iexact H0
      isplitl [H1]; · iexists d1; iexact H1
      iexists (outBlock m c t)
      rw [Window.fill_cut, outBlock_lt m c t (by omega) d1]
      iexact H2

/-- The library's body obligation, at every point. -/
theorem body_obligation (c : Dev nD) : BodyObligationLoose (dats (F := F) m 0 c) (defs₀ (F := F)) Variants.none () Set.univ := fun t => by
  rw [bigSep_W0, bigSep_W0]
  exact sound_body m c t

/-- What the launch hands the region is the invariant before the first point, -/
theorem hin (c : Dev nD) : Pipeline.ΦA spec0 c ⊢ (dats m 0 c).Φ 0 := by
  rw [show (dats m 0 c).Φ 0 = PhiS m c 0 from rfl]
  exact Idealize.SL.BI.Entails.refl _

/-- and after the last point the invariant gives it back, the scratch's contents forgotten. -/
theorem hout (c : Dev nD) : (dats m 0 c).Φ (Fin.last cfg0.N) ⊢ Pipeline.ΦA spec0 c := by
  rw [show (dats m 0 c).Φ (Fin.last cfg0.N) = PhiS m c (Fin.last cfg0.N).val from rfl,
    PhiS_pos m c _ (by rw [Fin.val_last]; have : cfg0.N = 40 := N_0; omega), PhiA_eq]
  iintro ⟨HS, Hg⟩
  isplitl [HS]
  · iexists _; iexact HS
  iexact Hg

/-! ## The run and the frame -/

set_option backward.isDefEq.respectTransparency.types false in
/-- Every weakly fair execution of the program terminates, faulting nowhere, with every array of the pipeline at what
    the proof data's write-backs leave and every other buffer as the closing reshape leaves it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => body_obligation m c) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The frame: the program runs to the end and its two arguments end as they began. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.KernelIdeal.Slab

end
-- ==== Proof.IdealPayloads.lean ====
/-
  The body's three payloads at the ideal instance, read at an index: narrowing to bf16 is the identity on the
  extended reals, and each of the two matrix products into a zero accumulator is the sum over the 20000 shared
  columns of the products of the two operands' entries — the first transposed on its way to the output block.
-/
import proofs.«114906_g36575941493117_cont_8to1_b_730_29_alg».proof.Proof.Gen.KernelIdeal.Skeleton
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Slab

open Cert.KernelIdeal Cert.KernelIdeal.Gen
open Idealize.ShloMosaic Idealize.ShloMosaic.ValueIdx

/-- Narrowing the left operand changes nothing at the ideal instance. -/
theorem pay1_apply (v9 : Vec Ideal S32x20000 .f32) (i : S32x20000.Idx) : k0_pay1 (F := Ideal) v9 i = v9 i := by
  unfold k0_pay1
  simp only [shapeCast_self]
  rfl

/-! The operand indices of the two products at an output index and a contraction index, coordinate by coordinate. -/

theorem lhs2_0 (i : S128x32.Idx) (q : dot_S128x20000_S32x20000_S128x32_1_1_0_0_n_n.contr.Idx) : (dot_S128x20000_S32x20000_S128x32_1_1_0_0_n_n.lhsIdx i q 0).val = (i 0).val := by
  unfold DotDims.lhsIdx
  rw [dif_neg (show ¬(0 : Fin S128x20000.rank) ∈ dot_S128x20000_S32x20000_S128x32_1_1_0_0_n_n.lhsBatch by decide), dif_pos (show (0 : Fin S128x20000.rank) ∈ dot_S128x20000_S32x20000_S128x32_1_1_0_0_n_n.lhsNonContracting by decide)]
  rfl
theorem lhs2_1 (i : S128x32.Idx) (q : dot_S128x20000_S32x20000_S128x32_1_1_0_0_n_n.contr.Idx) : (dot_S128x20000_S32x20000_S128x32_1_1_0_0_n_n.lhsIdx i q 1).val = (q ⟨0, by decide⟩).val :=
  dot_S128x20000_S32x20000_S128x32_1_1_0_0_n_n.lhsIdx_val_of_single rfl i q
theorem rhs2_0 (i : S128x32.Idx) (q : dot_S128x20000_S32x20000_S128x32_1_1_0_0_n_n.contr.Idx) : (dot_S128x20000_S32x20000_S128x32_1_1_0_0_n_n.rhsIdx i q 0).val = (i 1).val := by
  unfold DotDims.rhsIdx
  rw [dif_neg (show ¬(0 : Fin S32x20000.rank) ∈ dot_S128x20000_S32x20000_S128x32_1_1_0_0_n_n.rhsBatch by decide), dif_pos (show (0 : Fin S32x20000.rank) ∈ dot_S128x20000_S32x20000_S128x32_1_1_0_0_n_n.rhsNonContracting by decide)]
  rfl
theorem rhs2_1 (i : S128x32.Idx) (q : dot_S128x20000_S32x20000_S128x32_1_1_0_0_n_n.contr.Idx) : (dot_S128x20000_S32x20000_S128x32_1_1_0_0_n_n.rhsIdx i q 1).val = (q ⟨0, by decide⟩).val :=
  dot_S128x20000_S32x20000_S128x32_1_1_0_0_n_n.rhsIdx_val_of_single rfl i q

theorem lhs3_0 (i : S32x8.Idx) (q : dot_S32x20000_S8x20000_S32x8_1_1_0_0_n_n.contr.Idx) : (dot_S32x20000_S8x20000_S32x8_1_1_0_0_n_n.lhsIdx i q 0).val = (i 0).val := by
  unfold DotDims.lhsIdx
  rw [dif_neg (show ¬(0 : Fin S32x20000.rank) ∈ dot_S32x20000_S8x20000_S32x8_1_1_0_0_n_n.lhsBatch by decide), dif_pos (show (0 : Fin S32x20000.rank) ∈ dot_S32x20000_S8x20000_S32x8_1_1_0_0_n_n.lhsNonContracting by decide)]
  rfl
theorem lhs3_1 (i : S32x8.Idx) (q : dot_S32x20000_S8x20000_S32x8_1_1_0_0_n_n.contr.Idx) : (dot_S32x20000_S8x20000_S32x8_1_1_0_0_n_n.lhsIdx i q 1).val = (q ⟨0, by decide⟩).val :=
  dot_S32x20000_S8x20000_S32x8_1_1_0_0_n_n.lhsIdx_val_of_single rfl i q
theorem rhs3_0 (i : S32x8.Idx) (q : dot_S32x20000_S8x20000_S32x8_1_1_0_0_n_n.contr.Idx) : (dot_S32x20000_S8x20000_S32x8_1_1_0_0_n_n.rhsIdx i q 0).val = (i 1).val := by
  unfold DotDims.rhsIdx
  rw [dif_neg (show ¬(0 : Fin S8x20000.rank) ∈ dot_S32x20000_S8x20000_S32x8_1_1_0_0_n_n.rhsBatch by decide), dif_pos (show (0 : Fin S8x20000.rank) ∈ dot_S32x20000_S8x20000_S32x8_1_1_0_0_n_n.rhsNonContracting by decide)]
  rfl
theorem rhs3_1 (i : S32x8.Idx) (q : dot_S32x20000_S8x20000_S32x8_1_1_0_0_n_n.contr.Idx) : (dot_S32x20000_S8x20000_S32x8_1_1_0_0_n_n.rhsIdx i q 1).val = (q ⟨0, by decide⟩).val :=
  dot_S32x20000_S8x20000_S32x8_1_1_0_0_n_n.rhsIdx_val_of_single rfl i q

/-- The slab-against-left-operand product, transposed: entry (p, q) of the output block is the sum over the shared
    columns of slab row q times left-operand row p. -/
theorem pay2_apply (v9 : Vec Ideal S128x20000 .f32) (v11 : Vec Ideal S32x20000 .bf16) (p : Fin 32) (q : Fin 128) :
    k0_pay2 (F := Ideal) v9 v11 (ix2 p q) = ∑ k : Fin 20000, v9 (ix2 q k) * v11 (ix2 p k) := by
  unfold k0_pay2
  dsimp only
  rw [transpose_apply [1, 0] _ transposes_S128x32_p1_0_S32x128 (ix2 p q) (ix2 q p) (fun b => match b with
    | ⟨0, _⟩ => rfl
    | ⟨1, _⟩ => rfl)]
  simp only [matmul]
  rw [Ideal.matmul_constant_zero_apply, ← Equiv.sum_comp (contrEquiv1 dot_S128x20000_S32x20000_S128x32_1_1_0_0_n_n 20000 rfl rfl).symm]
  refine Finset.sum_congr rfl fun k _ => ?_
  have hk := contrEquiv1_symm_val dot_S128x20000_S32x20000_S128x32_1_1_0_0_n_n 20000 rfl rfl k
  have el : dot_S128x20000_S32x20000_S128x32_1_1_0_0_n_n.lhsIdx (ix2 q p) ((contrEquiv1 dot_S128x20000_S32x20000_S128x32_1_1_0_0_n_n 20000 rfl rfl).symm k) = ix2 q k := funext fun a => Fin.ext (by
    match a with
    | ⟨0, _⟩ => exact lhs2_0 _ _
    | ⟨1, _⟩ => exact (lhs2_1 _ _).trans hk)
  have er : dot_S128x20000_S32x20000_S128x32_1_1_0_0_n_n.rhsIdx (ix2 q p) ((contrEquiv1 dot_S128x20000_S32x20000_S128x32_1_1_0_0_n_n 20000 rfl rfl).symm k) = ix2 p k := funext fun a => Fin.ext (by
    match a with
    | ⟨0, _⟩ => exact rhs2_0 _ _
    | ⟨1, _⟩ => exact (rhs2_1 _ _).trans hk)
  rw [el, er]
  rfl

/-- The left-operand-against-slab-head product: entry (p, q) is the sum over the shared columns of left-operand row p
    times slab row q. -/
theorem pay3_apply (v9 : Vec Ideal S8x20000 .f32) (v11 : Vec Ideal S32x20000 .bf16) (p : Fin 32) (q : Fin 8) :
    k0_pay3 (F := Ideal) v9 v11 (ix2 p q) = ∑ k : Fin 20000, v11 (ix2 p k) * v9 (ix2 q k) := by
  unfold k0_pay3
  simp only [matmul]
  rw [Ideal.matmul_constant_zero_apply, ← Equiv.sum_comp (contrEquiv1 dot_S32x20000_S8x20000_S32x8_1_1_0_0_n_n 20000 rfl rfl).symm]
  refine Finset.sum_congr rfl fun k _ => ?_
  have hk := contrEquiv1_symm_val dot_S32x20000_S8x20000_S32x8_1_1_0_0_n_n 20000 rfl rfl k
  have el : dot_S32x20000_S8x20000_S32x8_1_1_0_0_n_n.lhsIdx (ix2 p q) ((contrEquiv1 dot_S32x20000_S8x20000_S32x8_1_1_0_0_n_n 20000 rfl rfl).symm k) = ix2 p k := funext fun a => Fin.ext (by
    match a with
    | ⟨0, _⟩ => exact lhs3_0 _ _
    | ⟨1, _⟩ => exact (lhs3_1 _ _).trans hk)
  have er : dot_S32x20000_S8x20000_S32x8_1_1_0_0_n_n.rhsIdx (ix2 p q) ((contrEquiv1 dot_S32x20000_S8x20000_S32x8_1_1_0_0_n_n 20000 rfl rfl).symm k) = ix2 q k := funext fun a => Fin.ext (by
    match a with
    | ⟨0, _⟩ => exact rhs3_0 _ _
    | ⟨1, _⟩ => exact (rhs3_1 _ _).trans hk)
  rw [el, er]
  rfl

end Cert.KernelIdeal.Slab

end
-- ==== Proof.Product.lean ====
/-
  The specification both programs meet at the ideal instance: the left operand x : [2, 16, 20000] is contracted along
  its last axis with each row of the right operand M : [5000, 20000],
      out[b, c, o] = Σ_v M[o, v] · x[b, c, v],
  a sum of 20000 products on the extended reals. No finiteness is needed anywhere: the two programs differ in how they
  lay the operands out and in which factor they write first, and a product of extended reals commutes.
-/
import Idealize.ShloMosaic.PureOps.Ideal
import Idealize.ShloMosaic.Lib.ValueIdx

noncomputable section

open scoped BigOperators

namespace Cert.Product

open Idealize.ShloMosaic Idealize.ShloMosaic.ValueIdx

/-- The contraction, entry by entry. -/
def product (x : (⟨3, ![2, 16, 20000]⟩ : Shape).Idx → EReal) (M : (⟨2, ![5000, 20000]⟩ : Shape).Idx → EReal) :
    (⟨3, ![2, 16, 5000]⟩ : Shape).Idx → EReal :=
  fun i => ∑ k : Fin 20000, M (ix2 (n0 := 5000) (i 2) k) * x (ix3 (n0 := 2) (n1 := 16) (i 0) (i 1) k)

theorem product_apply (x : (⟨3, ![2, 16, 20000]⟩ : Shape).Idx → EReal) (M : (⟨2, ![5000, 20000]⟩ : Shape).Idx → EReal)
    (b : Fin 2) (c : Fin 16) (o : Fin 5000) :
    product x M (ix3 b c o) = ∑ k : Fin 20000, M (ix2 o k) * x (ix3 b c k) := rfl

end Cert.Product

end
-- ==== Proof.IdealValue.lean ====
/-
  The kernel's result at the ideal instance is the specification.
  Entry (n, o) of the [32, 5000] array the forty write-backs leave is Σ_v M[o, v] · X[n, v], X the left operand
  flattened to [32, 20000]: point t writes columns 128 t ‥ 128 t + 127 (at the last point 4992 ‥ 4999), each from the
  slab's row of the same number, and the forty column ranges cover the 5000 columns. The last point's product has its
  factors in the other order, which a product of extended reals does not see. The closing reshape splits n = 16 b + c.
-/
import proofs.«114906_g36575941493117_cont_8to1_b_730_29_alg».proof.Proof.IdealStages
import proofs.«114906_g36575941493117_cont_8to1_b_730_29_alg».proof.Proof.IdealPayloads
import proofs.«114906_g36575941493117_cont_8to1_b_730_29_alg».proof.Proof.Product
import Idealize.ShloMosaic.Lib.StableHlo.Run

set_option maxRecDepth 16384

noncomputable section

open scoped BigOperators

namespace Cert.KernelIdeal.Slab

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable (m : (ℓ : Loc nD τ sig) → Buf (Elt Ideal) ℓ) (ρ : Dev nD → PrngReg)

/-- The flattened contraction: entry (n, o) is the sum over the shared columns of right-operand row o times
    flattened-left-operand row n. -/
def rowsProduct (X : S32x20000.Idx → EReal) (M : S5000x20000.Idx → EReal) : S32x5000.Idx → EReal :=
  fun i => ∑ k : Fin 20000, M (ix2 (n0 := 5000) (i 1) k) * X (ix2 (n0 := 32) (i 0) k)

theorem rowsProduct_apply (X : S32x20000.Idx → EReal) (M : S5000x20000.Idx → EReal) (p : Fin 32) (o : Fin 5000) :
    rowsProduct X M (ix2 p o) = ∑ k : Fin 20000, M (ix2 o k) * X (ix2 p k) := rfl

/-- The three windows' block indices at a point: the left operand's block never moves, the slab's row block and the
    output's column block are the point. -/
theorem idx_facts : ∀ t : Fin cfg0.N, win0_0.index t (0 : Fin 2) = 0 ∧ win0_0.index t (1 : Fin 2) = 0
    ∧ win0_1.index t (0 : Fin 2) = t.val ∧ win0_1.index t (1 : Fin 2) = 0
    ∧ win0_2.index t (0 : Fin 2) = 0 ∧ win0_2.index t (1 : Fin 2) = t.val :=
  (by decide +kernel : ∀ t : Fin grid0.N, win0_0.index t (0 : Fin 2) = 0 ∧ win0_0.index t (1 : Fin 2) = 0
    ∧ win0_1.index t (0 : Fin 2) = t.val ∧ win0_1.index t (1 : Fin 2) = 0
    ∧ win0_2.index t (0 : Fin 2) = 0 ∧ win0_2.index t (1 : Fin 2) = t.val)

/-- How much of the slab's and the output's block lies inside its array: all of it before the last point, eight rows
    (columns) at the last. -/
theorem xsize_facts : ∀ t : Fin cfg0.N, win0_1.xsize (grid0.coords t) 0 = (if t.val < 39 then 128 else 8) ∧ win0_1.xsize (grid0.coords t) 1 = 20000
    ∧ win0_2.xsize (grid0.coords t) 0 = 32 ∧ win0_2.xsize (grid0.coords t) 1 = (if t.val < 39 then 128 else 8) :=
  (by decide +kernel : ∀ t : Fin grid0.N, win0_1.xsize (grid0.coords t) 0 = (if t.val < 39 then 128 else 8) ∧ win0_1.xsize (grid0.coords t) 1 = 20000
    ∧ win0_2.xsize (grid0.coords t) 0 = 32 ∧ win0_2.xsize (grid0.coords t) 1 = (if t.val < 39 then 128 else 8))

/-- Two rank-2 indices with equal coordinates are equal. -/
theorem idx2_ext {n0 n1 : Nat} {x y : (⟨2, ![n0, n1]⟩ : Shape).Idx} (h0 : (x 0).val = (y 0).val) (h1 : (x 1).val = (y 1).val) : x = y := by
  funext a; apply Fin.ext
  match a with
  | ⟨0, _⟩ => exact h0
  | ⟨1, _⟩ => exact h1

/-- A block's index placed in its array: block index times block size plus the coordinate inside the block, axis by axis. -/
theorem emb1_val (t : Fin cfg0.N) (j : (win0_1.xblock (grid0.coords t)).Idx) (a : Fin 2) :
    (((cfg0.win 1).blk t).view.emb j a).val = win0_1.index t a * S128x20000.size a + 1 * (j a).val := rfl
theorem emb2_val (t : Fin cfg0.N) (j : (win0_2.xblock (grid0.coords t)).Idx) (a : Fin 2) :
    (((cfg0.win 2).blk t).view.emb j a).val = win0_2.index t a * S32x128.size a + 1 * (j a).val := rfl

/-- Reading block t of a [32, 5000] array at an index of the block is reading the array at the index placed in it; and
    the part of the output block's buffer a write-back moves is the buffer read at the block's leading indices. -/
theorem read2_apply (G : S32x5000.Idx → EReal) (t : Fin cfg0.N) (j : ((cfg0.win 2).xblock (grid0.coords t)).Idx) :
    ((cfg0.win 2).blk t).view.read (Elt Ideal) G j = G (((cfg0.win 2).blk t).view.emb j) := rfl
theorem cut2_apply (X : Vec Ideal S32x128 .f32) (t : Fin cfg0.N) (j : ((cfg0.win 2).xblock (grid0.coords t)).Idx) :
    (cfg0.win 2).cut (grid0.coords t) X j = X ((cfg0.win 2).xinj (grid0.coords t) j) := rfl

/-- The left operand's block is the whole flattened array. -/
theorem lhs_apply (c : Dev nD) (y : S32x20000.Idx) : lhs m c y = V m c main_v0 y := by
  unfold lhs iblk
  show V m c main_v0 (((cfg0.win 0).blk t₀).view.emb y) = _
  obtain ⟨e0, e1, -⟩ := idx_facts t₀
  refine congrArg _ (idx2_ext (n0 := 32) (n1 := 20000) ?_ ?_)
  · show win0_0.index t₀ (0 : Fin 2) * 32 + 1 * (y 0).val = (y 0).val; rw [e0]; omega
  · show win0_0.index t₀ (1 : Fin 2) * S32x20000.size 1 + 1 * (y 1).val = (y 1).val; rw [e1, Nat.zero_mul]; omega

/-- Row r of the slab's buffer at point t is row 128 t + r of the right operand, where that is a row of it. -/
theorem slab_apply (c : Dev nD) (t : Fin cfg0.N) (r : Fin 128) (k : Fin 20000) (h : t.val * 128 + r.val < 5000) :
    slab m c t (ix2 r k) = V m c main_arg1 (ix2 (⟨t.val * 128 + r.val, h⟩ : Fin 5000) k) := by
  have hN : t.val < 40 := lt_of_lt_of_eq t.isLt (show cfg0.N = 40 from N_0)
  obtain ⟨x0, x1, -, -⟩ := xsize_facts t
  have hm : win0_1.moved (grid0.coords t) (ix2 r k) = true := (win0_1.moved_iff _ _).mpr fun a => by
    match a with
    | ⟨0, _⟩ =>
      refine lt_of_lt_of_eq ?_ x0.symm
      have hr : r.val < 128 := r.isLt
      show r.val < _
      split <;> omega
    | ⟨1, _⟩ => exact lt_of_lt_of_eq k.isLt x1.symm
  unfold slab Window.fill
  rw [dif_pos hm]
  unfold iblk
  show V m c main_arg1 (((cfg0.win 1).blk t).view.emb _) = _
  obtain ⟨-, -, e0, e1, -, -⟩ := idx_facts t
  refine congrArg _ (idx2_ext (n0 := 5000) (n1 := 20000) ?_ ?_)
  · rw [emb1_val]; show win0_1.index t (0 : Fin 2) * 128 + 1 * r.val = t.val * 128 + r.val; rw [e0]; omega
  · rw [emb1_val]; show win0_1.index t (1 : Fin 2) * S128x20000.size 1 + 1 * k.val = k.val; rw [e1, Nat.zero_mul]; omega

/-- WHAT POINT t WRITES BACK is block t of the flattened contraction. -/
theorem flushed_eq (c : Dev nD) (t : Fin cfg0.N) :
    (dats m 0 c).flushed 2 t = ((cfg0.win 2).blk t).view.read (Elt Ideal) (rowsProduct (V m c main_v0) (V m c main_arg1)) := by
  show (cfg0.win 2).cut (grid0.coords t) ((dats m 0 c).after 2 t) = _
  rw [after_2]
  funext j
  have hN : t.val < 40 := lt_of_lt_of_eq t.isLt (show cfg0.N = 40 from N_0)
  obtain ⟨-, -, x20, x21⟩ := xsize_facts t
  obtain ⟨-, -, -, -, e20, e21⟩ := idx_facts t
  have hj0 : (j 0).val < 32 := lt_of_lt_of_eq (j 0).isLt x20
  rw [read2_apply, cut2_apply]
  by_cases ht : t.val < 39
  · have hj1 : (j 1).val < 128 := by have := lt_of_lt_of_eq (j 1).isLt x21; rwa [if_pos ht] at this
    have hrow : t.val * 128 + (j 1).val < 5000 := by omega
    have hx : (cfg0.win 2).xinj (grid0.coords t) j = ix2 (⟨(j 0).val, hj0⟩ : Fin 32) (⟨(j 1).val, hj1⟩ : Fin 128) := idx2_ext (n0 := 32) (n1 := 128) rfl rfl
    have he : ((cfg0.win 2).blk t).view.emb j = ix2 (⟨(j 0).val, hj0⟩ : Fin 32) (⟨t.val * 128 + (j 1).val, hrow⟩ : Fin 5000) := by
      refine idx2_ext (n0 := 32) (n1 := 5000) ?_ ?_
      · rw [emb2_val]; show win0_2.index t (0 : Fin 2) * 32 + 1 * (j 0).val = (j 0).val; rw [e20]; omega
      · rw [emb2_val]; show win0_2.index t (1 : Fin 2) * 128 + 1 * (j 1).val = t.val * 128 + (j 1).val; rw [e21]; omega
    rw [hx, he, rowsProduct_apply]
    unfold outBlock
    rw [if_pos ht, pay2_apply]
    show (_ : EReal) = _
    refine Finset.sum_congr rfl fun k _ => ?_
    rw [slab_apply m c t ⟨(j 1).val, hj1⟩ k hrow]
    unfold lhsNarrow
    rw [pay1_apply, lhs_apply]
  · have h39 : t.val = 39 := by omega
    have hj1 : (j 1).val < 8 := by have := lt_of_lt_of_eq (j 1).isLt x21; rwa [if_neg ht] at this
    have hrow : t.val * 128 + (j 1).val < 5000 := by omega
    have hx : (cfg0.win 2).xinj (grid0.coords t) j = colsHead.emb (ix2 (⟨(j 0).val, hj0⟩ : Fin 32) (⟨(j 1).val, hj1⟩ : Fin 8)) := by
      refine idx2_ext (n0 := 32) (n1 := 128) ?_ ?_
      · show (j 0).val = 0 + 1 * (j 0).val; omega
      · show (j 1).val = 0 + 1 * (j 1).val; omega
    have he : ((cfg0.win 2).blk t).view.emb j = ix2 (⟨(j 0).val, hj0⟩ : Fin 32) (⟨t.val * 128 + (j 1).val, hrow⟩ : Fin 5000) := by
      refine idx2_ext (n0 := 32) (n1 := 5000) ?_ ?_
      · rw [emb2_val]; show win0_2.index t (0 : Fin 2) * 32 + 1 * (j 0).val = (j 0).val; rw [e20]; omega
      · rw [emb2_val]; show win0_2.index t (1 : Fin 2) * 128 + 1 * (j 1).val = t.val * 128 + (j 1).val; rw [e21]; omega
    rw [hx, he, rowsProduct_apply, outBlock_last m c t h39, Rect.overlay_emb, pay3_apply]
    show (_ : EReal) = _
    refine Finset.sum_congr rfl fun k _ => ?_
    have hld : View.ld (slab m c t) rowsHead (ix2 (⟨(j 1).val, hj1⟩ : Fin 8) k) = slab m c t (ix2 (⟨(j 1).val, by omega⟩ : Fin 128) k) :=
      congrArg _ (idx2_ext (n0 := 128) (n1 := 20000) (by show 0 + 1 * (j 1).val = (j 1).val; omega) (by show 0 + 1 * k.val = k.val; omega))
    rw [hld, slab_apply m c t ⟨(j 1).val, by omega⟩ k hrow, mul_comm]
    unfold lhsNarrow
    rw [pay1_apply, lhs_apply]

/-- An index of the [32, 5000] array is in point t's block iff each coordinate is in the block's range inside the array. -/
theorem mem_blk (t : Fin cfg0.N) (i : S32x5000.Idx) :
    i ∈ ((cfg0.win 2).blk t).view.set ↔ ∀ a : Fin 2, win0_2.index t a * S32x128.size a ≤ (i a).val ∧ (i a).val < win0_2.index t a * S32x128.size a + win0_2.xsize (grid0.coords t) a := by
  show i ∈ ((View.whole main_v1).slice (win0_2.rect t)).set ↔ _
  rw [View.set_slice_whole, Rect.mem_set_unit]
  exact Iff.rfl

/-- Column o lies in the block of point o / 128. -/
theorem cover (i : S32x5000.Idx) : ∃ t : Fin cfg0.N, (cfg0.win 2).flush t = true ∧ i ∈ ((cfg0.win 2).blk t).view.set := by
  have hi0 : (i 0).val < 32 := (i 0).isLt
  have hi1 : (i 1).val < 5000 := (i 1).isLt
  have hN : cfg0.N = 40 := N_0
  have ht : (i 1).val / 128 < cfg0.N := by omega
  refine ⟨⟨(i 1).val / 128, ht⟩, flush0_2 _, ?_⟩
  rw [mem_blk]
  obtain ⟨-, -, x20, x21⟩ := xsize_facts ⟨(i 1).val / 128, ht⟩
  obtain ⟨-, -, -, -, e20, e21⟩ := idx_facts ⟨(i 1).val / 128, ht⟩
  intro a
  match a with
  | ⟨0, _⟩ =>
    show win0_2.index ⟨(i 1).val / 128, ht⟩ (0 : Fin 2) * 32 ≤ (i 0).val ∧ (i 0).val < win0_2.index ⟨(i 1).val / 128, ht⟩ (0 : Fin 2) * 32 + win0_2.xsize (grid0.coords ⟨(i 1).val / 128, ht⟩) 0
    rw [e20, x20]; omega
  | ⟨1, _⟩ =>
    show win0_2.index ⟨(i 1).val / 128, ht⟩ (1 : Fin 2) * 128 ≤ (i 1).val ∧ (i 1).val < win0_2.index ⟨(i 1).val / 128, ht⟩ (1 : Fin 2) * 128 + win0_2.xsize (grid0.coords ⟨(i 1).val / 128, ht⟩) 1
    rw [e21, x21]; dsimp only; split <;> omega

/-- THE ARRAY after the forty write-backs: the flattened contraction. -/
theorem final (c : Dev nD) : (dats m 0 c).arrAt 2 cfg0.N = rowsProduct (V m c main_v0) (V m c main_arg1) :=
  (dats m 0 c).arrAt_eq_of_cover 2 _ (fun t _ => flushed_eq m c t) cover

/-- The region finds the left operand flattened: the reshape before it. -/
theorem V_main_v0 (c : Dev nD) :
    (V m c main_v0 : S32x20000.Idx → EReal) = shapeCast S32x20000 (m ((c : Thread nD τ).loc main_arg0)) Facts₀.shapeCasts_S2x16x20000_S32x20000 := by
  show StableHlo.after hostOps0 (fun b => m (c, b)) (Proc.devRef .tc main_v0) = _
  after_results; rfl

/-- The closing reshape, of the array the write-backs left. -/
theorem tail_eq (c : Dev nD) :
    Pipeline.afterTail₀ cfgs (dats m) 0 (V0 m) [hostOps1] c main_v2
      = shapeCast S2x16x5000 (rowsProduct (V m c main_v0) (V m c main_arg1)) Facts₀.shapeCasts_S32x5000_S2x16x5000 := by
  unfold Pipeline.afterTail₀
  show StableHlo.after hostOps1 _ (Proc.devRef .tc main_v2) = _
  after_results
  rw [← final m c, ← Pipeline.withArrays_arr spec0 launch0.win.arr_inj c (V0 m c) (fun w => (dats m 0 c).arrAt w cfg0.N) 2]
  rfl

/-- THE RESULT: after the closing reshape, the specification of the two arguments. -/
theorem result_eq (c : Dev nD) :
    Pipeline.afterTail₀ cfgs (dats m) 0 (V0 m) [hostOps1] c main_v2
      = Cert.Product.product (m ((c : Thread nD τ).loc main_arg0)) (m ((c : Thread nD τ).loc main_arg1)) := by
  rw [tail_eq]
  funext i
  obtain ⟨b, cc, o, rfl⟩ : ∃ (b : Fin 2) (cc : Fin 16) (o : Fin 5000), i = ix3 b cc o := ⟨i 0, i 1, i 2, eq_ix3 i⟩
  have hb : b.val < 2 := b.isLt
  have hc : cc.val < 16 := cc.isLt
  have hn : b.val * 16 + cc.val < 32 := by omega
  rw [Cert.Product.product_apply,
    shapeCast_apply _ Facts₀.shapeCasts_S32x5000_S2x16x5000 (ix3 b cc o) (ix2 (⟨b.val * 16 + cc.val, hn⟩ : Fin 32) o)
      (by rewrite [Shape.rowMajor_val_two, Shape.rowMajor_val_three]; rfl),
    rowsProduct_apply]
  refine Finset.sum_congr rfl fun k _ => ?_
  rw [V_main_v0, V_main_arg1 m c,
    shapeCast_apply _ Facts₀.shapeCasts_S2x16x20000_S32x20000 (ix2 (⟨b.val * 16 + cc.val, hn⟩ : Fin 32) k) (ix3 b cc k)
      (by rewrite [Shape.rowMajor_val_three, Shape.rowMajor_val_two]; rfl)]

/-- THE RUN, read: the result is the specification of the arguments, which end as they began. -/
theorem run : θ_run defs (onTc (τ := τ) (main (F := Ideal))) ⟨m, fun _ => 0, ρ⟩ fun r => ∀ c : Dev nD,
      r.2.mem ((c.tc : Thread nD τ).loc main_v2) = Cert.Product.product (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v2 (Pipeline.mem_restRefs_of main_v2 (by decide) (by decide))).trans (result_eq m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c)))⟩)
    (run_main m ρ)

end Cert.KernelIdeal.Slab

end
-- ==== Proof.RefProduct.lean ====
/-
  The reference at the ideal instance is the specification: it transposes x to [20000, 2, 16], flattens that to
  [20000, 32], multiplies M : [5000, 20000] into it, and unflattens and transposes the [5000, 32] product back to
  [2, 16, 5000]. Read at (b, c, o) the four layout steps cancel — the flat column index 16 b + c splits back into
  (b, c) — and what is left is the sum over v of M[o, v] · x[b, c, v].
-/
import proofs.«114906_g36575941493117_cont_8to1_b_730_29_alg».proof.Proof.Gen.ReferenceIdeal.Read
import proofs.«114906_g36575941493117_cont_8to1_b_730_29_alg».proof.Proof.Product
import Idealize.ShloMosaic.Lib.ValueIdx
import Idealize.ShloMosaic.PureOps.Ideal.Laws

noncomputable section

open scoped BigOperators

namespace Cert.ReferenceIdeal.RefValue

open Cert.ReferenceIdeal Cert.ReferenceIdeal.Gen Cert.ReferenceIdeal.Read
open Idealize.ShloMosaic Idealize.ShloMosaic.ValueIdx

/-- The reference's result, entry by entry, is the contraction. -/
theorem result_eq (x0 : (⟨S2x16x20000, .f32⟩ : BufTy).Contents (Elt Ideal)) (x1 : (⟨S5000x20000, .f32⟩ : BufTy).Contents (Elt Ideal)) :
    val_main_v4 (F := Ideal) x0 x1 = Cert.Product.product x0 x1 := by
  funext i
  obtain ⟨b, c, o, rfl⟩ : ∃ (b : Fin 2) (c : Fin 16) (o : Fin 5000), i = ix3 b c o := ⟨i 0, i 1, i 2, eq_ix3 i⟩
  rw [Cert.Product.product_apply, val_main_v4_apply, val_main_v3_apply, val_main_v2_apply]
  refine Finset.sum_congr rfl fun k _ => ?_
  rw [val_main_v1_apply, val_main_v0_apply]
  have hb : b.val < 2 := b.isLt
  have hc : c.val < 16 := c.isLt
  have ho : o.val < 5000 := o.isLt
  have hk : k.val < 20000 := k.isLt
  have el : lidx_main_v2 (idx_main_v3 (idx_main_v4 (ix3 b c o))) k = ix2 o k := funext fun a => Fin.ext (by
    match a with
    | ⟨0, _⟩ => show ((o.val * 2 + b.val) * 16 + c.val) / 32 = o.val; omega
    | ⟨1, _⟩ => rfl)
  have er : idx_main_v0 (idx_main_v1 (ridx_main_v2 (idx_main_v3 (idx_main_v4 (ix3 b c o))) k)) = ix3 b c k := funext fun a => Fin.ext (by
    match a with
    | ⟨0, _⟩ => show (k.val * 32 + ((o.val * 2 + b.val) * 16 + c.val) % 32) / 16 % 2 = b.val; omega
    | ⟨1, _⟩ => show (k.val * 32 + ((o.val * 2 + b.val) * 16 + c.val) % 32) % 16 = c.val; omega
    | ⟨2, _⟩ => show (k.val * 32 + ((o.val * 2 + b.val) * 16 + c.val) % 32) / 32 = k.val; omega)
  rw [el, er]

end Cert.ReferenceIdeal.RefValue

end
-- ==== Proof.lean ====
/-
  The matrix-product kernel against its reference: out[b, c, o] = Σ_v M[o, v] · x[b, c, v].
  The kernel flattens x to [32, 20000], streams M in forty slabs of 128 rows through a pipeline — the last slab
  reaching 120 rows past the array's end —, keeps x narrowed to bf16 in a scratch it fills at the first grid point,
  writes a [32, 128] block of the [32, 5000] result per point (the last one cut to eight columns), and unflattens.
  The reference transposes and flattens x, multiplies M into it on the host, and lays the product back out.
  At the ideal instance narrowing is the identity and both are the same 20000-term sums of products of extended reals;
  the only algebra between them is that a product commutes (the kernel's last point multiplies in the other order),
  so the precondition is never opened. Both instances of the kernel run to the end for any inputs: the rows of the
  last slab's buffer that nothing names are never read, and the columns of the last block's buffer that the body does
  not store are never written back.
-/
import proofs.«114906_g36575941493117_cont_8to1_b_730_29_alg».proof.Defs
import proofs.«114906_g36575941493117_cont_8to1_b_730_29_alg».proof.Proof.Gen.Kernel
import proofs.«114906_g36575941493117_cont_8to1_b_730_29_alg».proof.Proof.Gen.KernelIdeal
import proofs.«114906_g36575941493117_cont_8to1_b_730_29_alg».proof.Proof.Gen.ReferenceIdeal
import proofs.«114906_g36575941493117_cont_8to1_b_730_29_alg».proof.Proof.Gen.Pre_finite_inputs
import proofs.«114906_g36575941493117_cont_8to1_b_730_29_alg».proof.Proof.BitsStages
import proofs.«114906_g36575941493117_cont_8to1_b_730_29_alg».proof.Proof.IdealValue
import proofs.«114906_g36575941493117_cont_8to1_b_730_29_alg».proof.Proof.RefProduct
import Idealize.ShloMosaic.Adequacy
import Idealize.ShloMosaic.Init

noncomputable section

namespace Cert.Proof

open Idealize.ShloMosaic Idealize.SL.Sem

/-- The kernel as printed runs to the end and keeps its arguments. -/
theorem frame_kernel : Cert.frame_Kernel (hKernel := Cert.Kernel.Gen.facts) (hPre_finite_inputs := Cert.Pre_finite_inputs.Gen.facts) :=
  fun m ρ _ => Cert.Kernel.Slab.frame m ρ

/-- So does its idealization. -/
theorem frame_kernelIdeal : Cert.frame_KernelIdeal (hKernelIdeal := Cert.KernelIdeal.Gen.facts) (hPre_finite_inputs := Cert.Pre_finite_inputs.Gen.facts) :=
  fun m ρ _ => Cert.KernelIdeal.Slab.frame m ρ

/-- And the reference: its run with the result dropped. -/
theorem frame_reference : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- From arguments that agree, both idealized programs end at the contraction of the kernel's arguments. -/
theorem algebraic : Cert.algebraic_KernelIdeal_ReferenceIdeal (hKernelIdeal := Cert.KernelIdeal.Gen.facts) (hReferenceIdeal := Cert.ReferenceIdeal.Gen.facts) (hPre_finite_inputs := Cert.Pre_finite_inputs.Gen.facts) := by
  intro m ρ m' ρ' _ hagree
  refine ⟨_, Cert.KernelIdeal.Slab.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2]
  exact (Cert.ReferenceIdeal.Read.val_main_v4_eq _ _).trans (Cert.ReferenceIdeal.RefValue.result_eq _ _)

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
